-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S2000x64 : Shape := ⟨2, ![2000, 64]⟩
abbrev S1x64 : Shape := ⟨2, ![1, 64]⟩
abbrev S100000x40 : Shape := ⟨2, ![100000, 40]⟩
abbrev S2000x40 : Shape := ⟨2, ![2000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 114
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x64, .f32⟩
  | .hbm, ⟨73, _⟩ => ⟨S1700000x1, .f32⟩
  | .hbm, ⟨74, _⟩ => ⟨S1700000x64, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x64, .f32⟩
  | .hbm, ⟨90, _⟩ => ⟨S1700000x1, .f32⟩
  | .hbm, ⟨91, _⟩ => ⟨S1700000x64, .f32⟩
  | .hbm, ⟨92, _⟩ => ⟨S1700000x64, .f32⟩
  | .hbm, ⟨93, _⟩ => ⟨S_, .f32⟩
  | .hbm, ⟨94, _⟩ => ⟨S100000x64, .f32⟩
  | .hbm, ⟨95, _⟩ => ⟨S1700000x1, .i32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S100000x40, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64x64, .f32⟩
  | .local _ .vmem, ⟨9, _⟩ => ⟨S64, .f32⟩
  | .local _ .vmem, ⟨10, _⟩ => ⟨S64x40, .f32⟩
  | .local _ .vmem, ⟨11, _⟩ => ⟨S40, .f32⟩
  | .local _ .vmem, ⟨12, _⟩ => ⟨S2000x40, .f32⟩
  | .local _ .vmem, ⟨13, _⟩ => ⟨S2000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x64_S2000x64_1_0_0_1_n_n_wf : DotDims.WF S2000x64 S64x64 S2000x64 [1] [0] [0] [1] [] []
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S100000x40.size a
  hwx1_5 : ∀ i : grid1.Coords, EltTy.bits .f32 = 32 ∨ (Rect.block (s := S100000x40) S2000x40.size (cc1_transform_5 i) (hinb1_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_v55) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v82) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v83) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x64, .f32⟩
  | 73 => ⟨S1700000x1, .f32⟩
  | 74 => ⟨S1700000x64, .f32⟩
  | 75 => ⟨S1700000x64, .f32⟩
  | 76 => ⟨S_, .f32⟩
  | 77 => ⟨S100000x64, .f32⟩
  | 78 => ⟨S1700000x1, .i32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x1, .f32⟩
  | 97 => ⟨S1700000x64, .f32⟩
  | 98 => ⟨S1700000x64, .f32⟩
  | 99 => ⟨S_, .f32⟩
  | 100 => ⟨S100000x64, .f32⟩
  | 101 => ⟨S1700000x1, .i32⟩
  | 102 => ⟨S100000x64, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x64, .f32⟩
  | 112 => ⟨S1700000x1, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x40, .f32⟩
  | 127 => ⟨S1x40, .f32⟩
  | _ => ⟨S100000x64, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x40, .f32⟩
  | 9 => ⟨S100000x40, .f32⟩
  | 10 => ⟨S100000x40, .f32⟩
  | 11 => ⟨S_, .f32⟩
  | 12 => ⟨S100000, .f32⟩
  | 13 => ⟨S100000x1, .f32⟩
  | 14 => ⟨S100000x1, .f32⟩
  | 15 => ⟨S100000x40, .f32⟩
  | 16 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_c_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call2_cst : Ref sig .tc := ⟨.hbm, 123, rfl⟩
abbrev main_call2_v0 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_call3_cst : Ref sig .tc := ⟨.hbm, 130, rfl⟩
abbrev main_call3_v0 : Ref sig .tc := ⟨.hbm, 131, rfl⟩
abbrev main_call3_cst_0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_cst_1 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_v96 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Rowwise.lean ====
/-
  Two graph-convolution layers followed by a classifier, row by row.

  After each propagation step the network applies a dense layer to every node's 64 features: for a feature array
  `x` with one row per node, a weight matrix `W` and a bias `b`,
      dense x W b (p, q) = max (∑ k, x (p, k) · W (k, q) + b q) 0,
  the rectified affine image of row `p`. The last stage takes a second dense layer's output to 40 class scores,
      logits (p, q) = ∑ k, dense x W₂ b₂ (p, k) · Wl (k, q) + bl q,
  and normalises each row: with `m p` the largest score of row `p`,
      logSoftmax z (p, q) = (z (p, q) − m p) − log (∑ q', exp (z (p, q') − m p)).
  Every one of these functions reads only row `p` of its array argument to produce row `p` of its result, so the
  rows of a block of consecutive nodes are computed from that block alone: the functions are stated for ANY number
  of rows `n`, and the same definition describes a block of 2000 nodes and the whole array of 100000.

  Over the extended reals a row's maximum is a fold of `max` from the bottom element `⊥`, which is what the bit
  pattern of negative infinity denotes; taking the maximum with `⊥` once more changes nothing. A row's sum started
  from the pattern of zero is the sum. Neither fact needs the entries to be finite, and no other algebra is used.
-/
import Idealize.ShloMosaic.PureOps.Ideal.Laws
import Idealize.ShloMosaic.Lib.ValueIdx

noncomputable section

open scoped BigOperators

namespace Cert.Rowwise

open Idealize.ShloMosaic Idealize.ShloMosaic.ValueIdx

/-! ## The functions -/

/-- A dense layer with rectification: entry `(p, q)` is `max (∑ k, x (p, k) · W (k, q) + b q) 0`. -/
def dense {n : Nat} (x : (⟨2, ![n, 64]⟩ : Shape).Idx → EReal) (W : (⟨2, ![64, 64]⟩ : Shape).Idx → EReal)
    (b : (⟨1, ![64]⟩ : Shape).Idx → EReal) : (⟨2, ![n, 64]⟩ : Shape).Idx → EReal :=
  fun i => max (∑ k : Fin 64, x (ix2 (i 0) k) * W (ix2 k (i 1)) + b (ix1 (i 1))) 0

/-- The class scores: a dense layer, then an affine map from 64 features to 40 classes. -/
def logits {n : Nat} (x : (⟨2, ![n, 64]⟩ : Shape).Idx → EReal) (W₂ : (⟨2, ![64, 64]⟩ : Shape).Idx → EReal)
    (b₂ : (⟨1, ![64]⟩ : Shape).Idx → EReal) (Wl : (⟨2, ![64, 40]⟩ : Shape).Idx → EReal)
    (bl : (⟨1, ![40]⟩ : Shape).Idx → EReal) : (⟨2, ![n, 40]⟩ : Shape).Idx → EReal :=
  fun i => ∑ k : Fin 64, dense x W₂ b₂ (ix2 (i 0) k) * Wl (ix2 k (i 1)) + bl (ix1 (i 1))

/-- The largest entry of row `p`: the fold of `max` over the row's 40 entries, from `⊥`. -/
def rowMax {n : Nat} (z : (⟨2, ![n, 40]⟩ : Shape).Idx → EReal) (p : Fin n) : EReal :=
  (Finset.univ : Finset (Fin 40)).fold max ⊥ (fun q => z (ix2 p q))

/-- The sum of the entries of row `p`. -/
def rowSum {n : Nat} (z : (⟨2, ![n, 40]⟩ : Shape).Idx → EReal) (p : Fin n) : EReal :=
  ∑ q : Fin 40, z (ix2 p q)

/-- Each row shifted by its maximum. -/
def shifted {n : Nat} (z : (⟨2, ![n, 40]⟩ : Shape).Idx → EReal) : (⟨2, ![n, 40]⟩ : Shape).Idx → EReal :=
  fun i => z i - rowMax z (i 0)

/-- The logarithm of the softmax of each row, computed from the shifted row. -/
def logSoftmax {n : Nat} (z : (⟨2, ![n, 40]⟩ : Shape).Idx → EReal) : (⟨2, ![n, 40]⟩ : Shape).Idx → EReal :=
  fun i => shifted z i - Ideal.log (rowSum (fun j => Ideal.exp (shifted z j)) (i 0))

/-- The last stage of the network: the class scores of every node, normalised row by row. -/
def head {n : Nat} (x : (⟨2, ![n, 64]⟩ : Shape).Idx → EReal) (W₂ : (⟨2, ![64, 64]⟩ : Shape).Idx → EReal)
    (b₂ : (⟨1, ![64]⟩ : Shape).Idx → EReal) (Wl : (⟨2, ![64, 40]⟩ : Shape).Idx → EReal)
    (bl : (⟨1, ![40]⟩ : Shape).Idx → EReal) : (⟨2, ![n, 40]⟩ : Shape).Idx → EReal :=
  logSoftmax (logits x W₂ b₂ Wl bl)

/-! ## Two constants -/

/-- The bit pattern of negative infinity denotes the bottom element of the extended reals. -/
theorem ofBits_neg_inf : Ideal.ofBits .f32 0xFF800000#32 = ⊥ := by simp [Ideal.ofBits, Ideal.ieee]

/-- The maximum with the bottom element is the other argument. -/
theorem max_bot_left' (y : EReal) : max (⊥ : EReal) y = y := max_eq_right bot_le

/-! ## A row of an `[n, 40]` array, through the reduced index -/

/-- The index of row `p` with the column `k` put back on axis 1 is `(p, k)`. -/
theorem lift_row {n : Nat} (h : (⟨2, ![n, 40]⟩ : Shape).Reduces [1] (⟨1, ![n]⟩ : Shape)) (p : Fin n)
    (k : Fin ((⟨2, ![n, 40]⟩ : Shape).size 1)) : h.lift (ix1 p) k = ix2 p (⟨k.val, k.isLt⟩ : Fin 40) := by
  funext c; apply Fin.ext
  fin_cases c <;> rfl

/-- A function of the reduced index composed with the row's indices is the row. -/
theorem comp_lift_row {n : Nat} (h : (⟨2, ![n, 40]⟩ : Shape).Reduces [1] (⟨1, ![n]⟩ : Shape))
    (z : (⟨2, ![n, 40]⟩ : Shape).Idx → EReal) (p : Fin n) :
    (z ∘ h.lift (ix1 p)) = fun q : Fin 40 => z (ix2 p q) :=
  funext fun k => congrArg z (lift_row h p k)

end Cert.Rowwise

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RowSoftmax.lean ====
/-
  The logarithm of a row softmax, as a vector unit computes it.

  Given an `[n, 40]` array `z`, the computation reduces each row to its maximum, keeps the reduced axis as a column
  of width one, broadcasts the column back over the row and subtracts; exponentiates; reduces each row to its sum,
  again kept as a column; takes the logarithm of the column, broadcasts it back, and subtracts it from the shifted
  row. Entry by entry that is
      (z (p, q) − m p) − log (∑ q', exp (z (p, q') − m p)),      m p the maximum of row p,
  which is `Cert.Rowwise.logSoftmax z`. The row maximum is a fold of `max` from the value of the pattern of
  negative infinity, that is from `⊥`; the row sum from the pattern of zero is the plain sum.
-/
import proofs.«139116_j7722351198606_1_alg».proof.Proof.Rowwise
import proofs.«139116_j7722351198606_1_alg».proof.Proof.LibColumnLayout
import Idealize.ShloMosaic.PureOps.Ideal.Laws

noncomputable section

open scoped BigOperators

namespace Cert.Rowwise

open Idealize.ShloMosaic Idealize.ShloMosaic.ValueIdx

variable {n : Nat}

/-- The exponential and the logarithm of a vector are taken entry by entry. -/
theorem exp_apply {s : Shape} (a : FVec Ideal s .f32) (i : s.Idx) : exp a i = Ideal.exp (a i) := rfl
theorem log_apply {s : Shape} (a : FVec Ideal s .f32) (i : s.Idx) : log a i = Ideal.log (a i) := rfl

/-- A row statistic kept as a column and broadcast back over the row reads, at `(p, q)`, the statistic of row `p`. -/
theorem column_back (s : FVec Ideal (⟨1, ![n]⟩ : Shape) .f32) (hc : (⟨1, ![n]⟩ : Shape).ShapeCasts ⟨2, ![n, 1]⟩)
    (hb : (⟨2, ![n, 1]⟩ : Shape).Broadcasts ⟨2, ![n, 40]⟩) (p : Fin n) (q : Fin 40) :
    broadcastTo (⟨2, ![n, 40]⟩ : Shape) (shapeCast (⟨2, ![n, 1]⟩ : Shape) s hc) hb (ix2 p q) = s (ix1 p) := by
  rw [broadcastTo_a1_ab_apply, shapeCast_a_a1_apply]

/-- The maximum reduction over the columns, from the pattern of negative infinity, is the row maximum. -/
theorem maxred_row (z : FVec Ideal (⟨2, ![n, 40]⟩ : Shape) .f32) (hr : (⟨2, ![n, 40]⟩ : Shape).Reduces [1] (⟨1, ![n]⟩ : Shape))
    (hφ : FKind.Formats .f32) (hacc : (0xFF800000#32 : BitVec 32) = FKind.maximumf.neutral .f32 hφ) (p : Fin n) :
    multiReduction .maximumf [1] (⟨1, ![n]⟩ : Shape) z 0xFF800000#32 hr hφ hacc (ix1 p) = rowMax z p := by
  rw [Ideal.multiReduction_maximumf_single, comp_lift_row]
  show Finset.fold max (Ideal.ofBits .f32 0xFF800000#32) _ _ = _
  rw [ofBits_neg_inf]
  rfl

/-- The sum reduction over the columns, from the pattern of zero, is the row sum. -/
theorem addred_row (z : FVec Ideal (⟨2, ![n, 40]⟩ : Shape) .f32) (hr : (⟨2, ![n, 40]⟩ : Shape).Reduces [1] (⟨1, ![n]⟩ : Shape))
    (hφ : FKind.Formats .f32) (hacc : (0x00000000#32 : BitVec 32) = FKind.add.neutral .f32 hφ) (p : Fin n) :
    multiReduction .add [1] (⟨1, ![n]⟩ : Shape) z 0x00000000#32 hr hφ hacc (ix1 p) = rowSum z p := by
  rw [Ideal.multiReduction_add_single]
  exact Finset.sum_congr rfl fun k _ => congrArg z (lift_row hr p k)

/-- The whole computation is the logarithm of the row softmax. -/
theorem logSoftmax_columns (z : FVec Ideal (⟨2, ![n, 40]⟩ : Shape) .f32)
    (hr : (⟨2, ![n, 40]⟩ : Shape).Reduces [1] (⟨1, ![n]⟩ : Shape))
    (hc : (⟨1, ![n]⟩ : Shape).ShapeCasts ⟨2, ![n, 1]⟩) (hb : (⟨2, ![n, 1]⟩ : Shape).Broadcasts ⟨2, ![n, 40]⟩)
    (hφ : FKind.Formats .f32) (hmax : (0xFF800000#32 : BitVec 32) = FKind.maximumf.neutral .f32 hφ)
    (hadd : (0x00000000#32 : BitVec 32) = FKind.add.neutral .f32 hφ) :
    subf (subf z (broadcastTo (⟨2, ![n, 40]⟩ : Shape) (shapeCast (⟨2, ![n, 1]⟩ : Shape)
            (multiReduction .maximumf [1] (⟨1, ![n]⟩ : Shape) z 0xFF800000#32 hr hφ hmax) hc) hb))
      (broadcastTo (⟨2, ![n, 40]⟩ : Shape) (log (shapeCast (⟨2, ![n, 1]⟩ : Shape)
        (multiReduction .add [1] (⟨1, ![n]⟩ : Shape)
          (exp (subf z (broadcastTo (⟨2, ![n, 40]⟩ : Shape) (shapeCast (⟨2, ![n, 1]⟩ : Shape)
            (multiReduction .maximumf [1] (⟨1, ![n]⟩ : Shape) z 0xFF800000#32 hr hφ hmax) hc) hb)))
          0x00000000#32 hr hφ hadd) hc)) hb)
      = logSoftmax z := by
  -- the shifted array, entry by entry
  have hs : subf z (broadcastTo (⟨2, ![n, 40]⟩ : Shape) (shapeCast (⟨2, ![n, 1]⟩ : Shape)
      (multiReduction .maximumf [1] (⟨1, ![n]⟩ : Shape) z 0xFF800000#32 hr hφ hmax) hc) hb) = shifted z := by
    funext j
    obtain ⟨p, q, rfl⟩ : ∃ (p : Fin n) (q : Fin 40), j = ix2 p q := ⟨j 0, j 1, eq_ix2 j⟩
    rw [subf_apply, column_back, maxred_row]
    rfl
  rw [hs]
  funext j
  obtain ⟨p, q, rfl⟩ : ∃ (p : Fin n) (q : Fin 40), j = ix2 p q := ⟨j 0, j 1, eq_ix2 j⟩
  rw [subf_apply, broadcastTo_a1_ab_apply, log_apply, shapeCast_a_a1_apply, addred_row]
  rfl

end Cert.Rowwise

end
-- ==== Proof.BlockPayloads.lean ====
/-
  What one grid point's body computes, entry by entry.

  The first kernel's body loads a block of 2000 node rows, a weight matrix and a bias, and stores
  `max (x · W + b) 0`: at the extended reals the narrowing of the operands before the matrix product is the
  identity, the product into a zero accumulator is the plain sum over the 64 features, the bias is repeated down
  the rows, and the rectification is the maximum with zero. So the stored block IS the dense layer of the loaded
  block (`Cert.Rowwise.dense` at 2000 rows).

  The second kernel's body computes the same dense layer of its block with the second layer's weights, multiplies
  by the `64 × 40` classifier matrix and adds the classifier bias — the class scores of the block's nodes
  (`Cert.Rowwise.logits`) — and stores the logarithm of each row's softmax, computed through the row maximum and
  the row sum kept as columns. So the stored block is `Cert.Rowwise.head` of the loaded block.
-/
import proofs.«139116_j7722351198606_1_alg».proof.Proof.Gen.KernelIdeal.Skeleton
import proofs.«139116_j7722351198606_1_alg».proof.Proof.Rowwise
import proofs.«139116_j7722351198606_1_alg».proof.Proof.RowSoftmax
import proofs.«139116_j7722351198606_1_alg».proof.Proof.LibColumnLayout
import Idealize.ShloMosaic.Lib.ValueLayout
import Idealize.ShloMosaic.PureOps.Ideal.Laws

noncomputable section

open scoped BigOperators

namespace Cert.KernelIdeal.Payload

open Cert.KernelIdeal Cert.KernelIdeal.Gen Cert.Rowwise
open Idealize.ShloMosaic Idealize.ShloMosaic.ValueIdx

/-! ## The matrix product of a block of rows with a `64 × 64` matrix -/

theorem lhs64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem rhs64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- Into a zero accumulator the product of a `2000 × 64` block with a `64 × 64` matrix is, at `(p, q)`, the sum
    over the 64 features of row `p` of the block times column `q` of the matrix. -/
theorem matmul64_apply (x : FVec Ideal S2000x64 .bf16) (w : FVec Ideal S64x64 .bf16) (p : Fin 2000) (q : Fin 64) :
    matmul dot_S2000x64_S64x64_S2000x64_1_0_0_1_n_n none x w (constant S2000x64 .f32 0x00000000#32) (ix2 p q)
      = ∑ k : Fin 64, x (ix2 p k) * w (ix2 k q) := by
  simp only [matmul]
  rw [Ideal.matmul_constant_zero_apply,
    ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q)
      ((contrEquiv1 dot_S2000x64_S64x64_S2000x64_1_0_0_1_n_n 64 rfl rfl).symm k) = ix2 p k :=
    funext fun a => Fin.ext (by
      match a with
      | ⟨0, _⟩ => exact lhs64_0 _ _
      | ⟨1, _⟩ => exact (dot_S2000x64_S64x64_S2000x64_1_0_0_1_n_n.lhsIdx_val_of_single rfl _ _).trans hk)
  have er : dot_S2000x64_S64x64_S2000x64_1_0_0_1_n_n.rhsIdx (ix2 p q)
      ((contrEquiv1 dot_S2000x64_S64x64_S2000x64_1_0_0_1_n_n 64 rfl rfl).symm k) = ix2 k q :=
    funext fun a => Fin.ext (by
      match a with
      | ⟨0, _⟩ => exact (dot_S2000x64_S64x64_S2000x64_1_0_0_1_n_n.rhsIdx_val_of_single rfl _ _).trans hk
      | ⟨1, _⟩ => exact rhs64_1 _ _)
  rw [el, er]

/-! ## The matrix product of a block of rows with the `64 × 40` classifier matrix -/

theorem lhs40_0 (i : S2000x40.Idx) (q : dot_S2000x64_S64x40_S2000x40_1_0_0_1_n_n.contr.Idx) :
    (dot_S2000x64_S64x40_S2000x40_1_0_0_1_n_n.lhsIdx i q 0).val = (i 0).val := by
  unfold DotDims.lhsIdx
  rw [dif_neg (show ¬(0 : Fin S2000x64.rank) ∈ dot_S2000x64_S64x40_S2000x40_1_0_0_1_n_n.lhsBatch by decide),
    dif_pos (show (0 : Fin S2000x64.rank) ∈ dot_S2000x64_S64x40_S2000x40_1_0_0_1_n_n.lhsNonContracting by decide)]
  rfl

theorem rhs40_1 (i : S2000x40.Idx) (q : dot_S2000x64_S64x40_S2000x40_1_0_0_1_n_n.contr.Idx) :
    (dot_S2000x64_S64x40_S2000x40_1_0_0_1_n_n.rhsIdx i q 1).val = (i 1).val := by
  unfold DotDims.rhsIdx
  rw [dif_neg (show ¬(1 : Fin S64x40.rank) ∈ dot_S2000x64_S64x40_S2000x40_1_0_0_1_n_n.rhsBatch by decide),
    dif_pos (show (1 : Fin S64x40.rank) ∈ dot_S2000x64_S64x40_S2000x40_1_0_0_1_n_n.rhsNonContracting by decide)]
  rfl

/-- Into a zero accumulator the product of a `2000 × 64` block with a `64 × 40` matrix is, at `(p, q)`, the sum
    over the 64 features of row `p` of the block times column `q` of the matrix. -/
theorem matmul40_apply (x : FVec Ideal S2000x64 .bf16) (w : FVec Ideal S64x40 .bf16) (p : Fin 2000) (q : Fin 40) :
    matmul dot_S2000x64_S64x40_S2000x40_1_0_0_1_n_n none x w (constant S2000x40 .f32 0x00000000#32) (ix2 p q)
      = ∑ k : Fin 64, x (ix2 p k) * w (ix2 k q) := by
  simp only [matmul]
  rw [Ideal.matmul_constant_zero_apply,
    ← Equiv.sum_comp (contrEquiv1 dot_S2000x64_S64x40_S2000x40_1_0_0_1_n_n 64 rfl rfl).symm]
  refine Finset.sum_congr rfl fun k _ => ?_
  have hk := contrEquiv1_symm_val dot_S2000x64_S64x40_S2000x40_1_0_0_1_n_n 64 rfl rfl k
  have el : dot_S2000x64_S64x40_S2000x40_1_0_0_1_n_n.lhsIdx (ix2 p q)
      ((contrEquiv1 dot_S2000x64_S64x40_S2000x40_1_0_0_1_n_n 64 rfl rfl).symm k) = ix2 p k :=
    funext fun a => Fin.ext (by
      match a with
      | ⟨0, _⟩ => exact lhs40_0 _ _
      | ⟨1, _⟩ => exact (dot_S2000x64_S64x40_S2000x40_1_0_0_1_n_n.lhsIdx_val_of_single rfl _ _).trans hk)
  have er : dot_S2000x64_S64x40_S2000x40_1_0_0_1_n_n.rhsIdx (ix2 p q)
      ((contrEquiv1 dot_S2000x64_S64x40_S2000x40_1_0_0_1_n_n 64 rfl rfl).symm k) = ix2 k q :=
    funext fun a => Fin.ext (by
      match a with
      | ⟨0, _⟩ => exact (dot_S2000x64_S64x40_S2000x40_1_0_0_1_n_n.rhsIdx_val_of_single rfl _ _).trans hk
      | ⟨1, _⟩ => exact rhs40_1 _ _)
  rw [el, er]

/-! ## A bias repeated down the rows -/

/-- A 64-vector cast to one row and broadcast over 2000 rows reads, at `(p, q)`, the vector at `q`. -/
theorem bias64_apply (b : FVec Ideal S64 .f32) (p : Fin 2000) (q : Fin 64) :
    broadcastTo S2000x64 (shapeCast S1x64 b Facts₀.shapeCasts_S64_S1x64) Facts₀.broadcasts_S1x64_S2000x64 (ix2 p q)
      = b (ix1 q) := by
  rw [broadcastTo_1b_ab_apply, shapeCast_a_1a_apply]

/-- A 40-vector cast to one row and broadcast over 2000 rows reads, at `(p, q)`, the vector at `q`. -/
theorem bias40_apply (b : FVec Ideal S40 .f32) (p : Fin 2000) (q : Fin 40) :
    broadcastTo S2000x40 (shapeCast S1x40 b Facts₀.shapeCasts_S40_S1x40) Facts₀.broadcasts_S1x40_S2000x40 (ix2 p q)
      = b (ix1 q) := by
  rw [broadcastTo_1b_ab_apply, shapeCast_a_1a_apply]

/-! ## The first body's stored block -/

/-- The block the first kernel's body stores is the dense layer of the block it loads. -/
theorem pay0_eq (x0 : FVec Ideal S2000x64 .f32) (x1 : FVec Ideal S64x64 .f32) (x2 : FVec Ideal S64 .f32) :
    k0_pay1 (F := Ideal) x0 x1 x2 = dense x0 x1 x2 := by
  funext j
  obtain ⟨p, q, rfl⟩ : ∃ (p : Fin 2000) (q : Fin 64), j = ix2 p q := ⟨j 0, j 1, eq_ix2 j⟩
  unfold k0_pay1 dense
  simp only [maximumf_apply, addf_apply, broadcast_apply]
  rw [matmul64_apply, bias64_apply]
  simp only [truncf_apply, shapeCast_self]
  show max _ (Ideal.ofBits .f32 0x00000000#32) = max _ 0
  rw [Ideal.ofBits_zero_f32]

/-! ## The second body's stored block -/

/-- The class scores of a block, as the second body computes them: the dense layer of the block narrowed, times
    the classifier matrix into a zero accumulator, plus the classifier bias down the rows. -/
def scores (x0 : FVec Ideal S2000x64 .f32) (x1 : FVec Ideal S64x64 .f32) (x2 : FVec Ideal S64 .f32)
    (x3 : FVec Ideal S64x40 .f32) (x4 : FVec Ideal S40 .f32) : FVec Ideal S2000x40 .f32 :=
  addf (matmul dot_S2000x64_S64x40_S2000x40_1_0_0_1_n_n none
      (truncf .bf16 (k0_pay1 (F := Ideal) x0 x1 x2) Facts₀.bitsLt_bf16_f32) (truncf .bf16 x3 Facts₀.bitsLt_bf16_f32)
      (constant S2000x40 .f32 0x00000000#32))
    (broadcastTo S2000x40 (shapeCast S1x40 x4 Facts₀.shapeCasts_S40_S1x40) Facts₀.broadcasts_S1x40_S2000x40)

/-- They are the specification's class scores of the block. -/
theorem scores_eq (x0 : FVec Ideal S2000x64 .f32) (x1 : FVec Ideal S64x64 .f32) (x2 : FVec Ideal S64 .f32)
    (x3 : FVec Ideal S64x40 .f32) (x4 : FVec Ideal S40 .f32) :
    scores x0 x1 x2 x3 x4 = logits x0 x1 x2 x3 x4 := by
  funext j
  obtain ⟨p, q, rfl⟩ : ∃ (p : Fin 2000) (q : Fin 40), j = ix2 p q := ⟨j 0, j 1, eq_ix2 j⟩
  unfold scores logits
  rw [addf_apply, matmul40_apply, bias40_apply]
  simp only [truncf_apply, pay0_eq]

/-- The block the second kernel's body stores is the normalised class scores of the block it loads. -/
theorem pay1_eq (x0 : FVec Ideal S2000x64 .f32) (x1 : FVec Ideal S64x64 .f32) (x2 : FVec Ideal S64 .f32)
    (x3 : FVec Ideal S64x40 .f32) (x4 : FVec Ideal S40 .f32) :
    k1_pay1 (F := Ideal) x0 x1 x2 x3 x4 = head x0 x1 x2 x3 x4 := by
  unfold head
  rw [← scores_eq]
  exact logSoftmax_columns (scores x0 x1 x2 x3 x4) _ _ _ _ _ _

end Cert.KernelIdeal.Payload

end
-- ==== Proof.RowBlocks.lean ====
/-
  Rows in, rows out.

  Each of the network's dense stages produces row `p` of its result from row `p` of its array argument alone (and
  from the weights, which are not split). So if row `p` of a block `x` is row `r` of an array `X`, then row `p` of
  the stage applied to the block is row `r` of the stage applied to the array: a block of consecutive node rows can
  be processed by itself and written back in place. This is stated for the dense layer and for the final stage
  (class scores, then the logarithm of each row's softmax), whose row maximum and row sum also read one row only.
-/
import proofs.«139116_j7722351198606_1_alg».proof.Proof.Rowwise

noncomputable section

open scoped BigOperators

namespace Cert.Rowwise

open Idealize.ShloMosaic Idealize.ShloMosaic.ValueIdx

variable {n N : Nat}

/-- Row `p` of the dense layer of `x` is row `r` of the dense layer of `X` when row `p` of `x` is row `r` of `X`. -/
theorem dense_rows (x : (⟨2, ![n, 64]⟩ : Shape).Idx → EReal) (X : (⟨2, ![N, 64]⟩ : Shape).Idx → EReal)
    (W : (⟨2, ![64, 64]⟩ : Shape).Idx → EReal) (b : (⟨1, ![64]⟩ : Shape).Idx → EReal) (p : Fin n) (r : Fin N)
    (hx : ∀ k : Fin 64, x (ix2 p k) = X (ix2 r k)) (q : Fin 64) :
    dense x W b (ix2 p q) = dense X W b (ix2 r q) := by
  show max (∑ k : Fin 64, x (ix2 p k) * W (ix2 k q) + b (ix1 q)) 0
    = max (∑ k : Fin 64, X (ix2 r k) * W (ix2 k q) + b (ix1 q)) 0
  simp only [hx]

/-- The same for the class scores. -/
theorem logits_rows (x : (⟨2, ![n, 64]⟩ : Shape).Idx → EReal) (X : (⟨2, ![N, 64]⟩ : Shape).Idx → EReal)
    (W₂ : (⟨2, ![64, 64]⟩ : Shape).Idx → EReal) (b₂ : (⟨1, ![64]⟩ : Shape).Idx → EReal)
    (Wl : (⟨2, ![64, 40]⟩ : Shape).Idx → EReal) (bl : (⟨1, ![40]⟩ : Shape).Idx → EReal) (p : Fin n) (r : Fin N)
    (hx : ∀ k : Fin 64, x (ix2 p k) = X (ix2 r k)) (q : Fin 40) :
    logits x W₂ b₂ Wl bl (ix2 p q) = logits X W₂ b₂ Wl bl (ix2 r q) := by
  show ∑ k : Fin 64, dense x W₂ b₂ (ix2 p k) * Wl (ix2 k q) + bl (ix1 q)
    = ∑ k : Fin 64, dense X W₂ b₂ (ix2 r k) * Wl (ix2 k q) + bl (ix1 q)
  simp only [dense_rows x X W₂ b₂ p r hx]

/-- The logarithm of a row's softmax reads that row only: if row `p` of `z` is row `r` of `Z`, the two results
    agree on those rows. -/
theorem logSoftmax_rows (z : (⟨2, ![n, 40]⟩ : Shape).Idx → EReal) (Z : (⟨2, ![N, 40]⟩ : Shape).Idx → EReal)
    (p : Fin n) (r : Fin N) (hz : ∀ q : Fin 40, z (ix2 p q) = Z (ix2 r q)) (q : Fin 40) :
    logSoftmax z (ix2 p q) = logSoftmax Z (ix2 r q) := by
  have hm : rowMax z p = rowMax Z r := by
    unfold rowMax
    simp only [hz]
  have hs : ∀ q' : Fin 40, shifted z (ix2 p q') = shifted Z (ix2 r q') := fun q' => by
    show z (ix2 p q') - rowMax z p = Z (ix2 r q') - rowMax Z r
    rw [hz, hm]
  show shifted z (ix2 p q) - Ideal.log (∑ q' : Fin 40, Ideal.exp (shifted z (ix2 p q')))
    = shifted Z (ix2 r q) - Ideal.log (∑ q' : Fin 40, Ideal.exp (shifted Z (ix2 r q')))
  simp only [hs]

/-- The final stage, block against array. -/
theorem head_rows (x : (⟨2, ![n, 64]⟩ : Shape).Idx → EReal) (X : (⟨2, ![N, 64]⟩ : Shape).Idx → EReal)
    (W₂ : (⟨2, ![64, 64]⟩ : Shape).Idx → EReal) (b₂ : (⟨1, ![64]⟩ : Shape).Idx → EReal)
    (Wl : (⟨2, ![64, 40]⟩ : Shape).Idx → EReal) (bl : (⟨1, ![40]⟩ : Shape).Idx → EReal) (p : Fin n) (r : Fin N)
    (hx : ∀ k : Fin 64, x (ix2 p k) = X (ix2 r k)) (q : Fin 40) :
    head x W₂ b₂ Wl bl (ix2 p q) = head X W₂ b₂ Wl bl (ix2 r q) :=
  logSoftmax_rows _ _ p r (fun q' => logits_rows x X W₂ b₂ Wl bl p r hx q') q

end Cert.Rowwise

end
-- ==== Proof.RegionArrays.lean ====
/-
  From blocks to arrays.

  Each kernel runs over 50 grid points; point `t` reads rows `2000·t … 2000·t + 1999` of its activation array (and
  the whole of each weight and bias array, whose windows never move), and writes the block it computes back to the
  same rows of its output array. The 50 output blocks tile the 100000 rows exactly. Since the computed block is a
  row-wise function of the loaded block (the dense layer for the first kernel, the final stage for the second), the
  block written at point `t` is rows `2000·t …` of that function applied to the WHOLE activation array; the blocks
  cover every row (row `r` lies in the block of point `r / 2000`), so after the last point the output array is the
  function of the arrays the region found on entry. Both statements hold for any entry contents `V`.
-/
import proofs.«139116_j7722351198606_1_alg».proof.Proof.Gen.KernelIdeal.Frame
import proofs.«139116_j7722351198606_1_alg».proof.Proof.BlockPayloads
import proofs.«139116_j7722351198606_1_alg».proof.Proof.RowBlocks
import Idealize.ShloMosaic.Lib.Pipeline.Value

set_option maxRecDepth 16384

noncomputable section

open scoped BigOperators

namespace Cert.KernelIdeal.Arrays

open Cert.KernelIdeal Cert.KernelIdeal.Gen Cert.Rowwise Cert.KernelIdeal.Payload
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first kernel: the dense layer of the propagated features -/

/-- The index maps over the grid: the activation window and the output window sit at block `(t, 0)`, the weight
    and bias windows at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the dense layer of the whole activation array. -/
theorem flushed0 (c : Dev nD) (t : Fin cfg0.N) :
    (dat0 V c).flushed 3 t = ((cfg0.win 3).blk t).view.read (Elt Ideal)
      (dense (V c main_v55) (V c main_arg2) (V c main_arg3)) := by
  show (cfg0.win 3).cut (grid0.coords t) ((dat0 V c).after 3 t) = _
  rw [after0_3]
  unfold out0_3
  rw [View.canon_unit_zero hz2]
  simp only [View.ld_unit_zero (S := S2000x64) hz2, View.ld_unit_zero (S := S64x64) hz2, View.ld_unit_zero (S := S64) hz1]
  rw [pay0_eq]
  obtain ⟨e00, e01, e10, e11, e20, e30, e31⟩ := idx_facts0 t
  funext j
  obtain ⟨p, q, rfl⟩ : ∃ (p : Fin 2000) (q : Fin 64), j = ix2 p q := ⟨j 0, j 1, eq_ix2 j⟩
  have ht : t.val < 50 := lt_of_lt_of_eq t.isLt N_0
  have hp : p.val < 2000 := p.isLt
  have hr : ((cfg0.win 3).blk t).view.emb (ix2 p q) = ix2 (⟨2000 * t.val + p.val, by omega⟩ : Fin 100000) q := by
    funext a; apply Fin.ext
    match a with
    | ⟨0, _⟩ => show win0_3.index t (0 : Fin 2) * 2000 + 1 * p.val = 2000 * t.val + p.val; omega
    | ⟨1, _⟩ => show win0_3.index t (1 : Fin 2) * 64 + 1 * q.val = q.val; omega
  have hx : ∀ k : Fin 64, iblk0 V c 0 t (ix2 p k) = V c main_v55 (ix2 (⟨2000 * t.val + p.val, by omega⟩ : Fin 100000) k) := fun k => by
    show V c main_v55 (((cfg0.win 0).blk t).view.emb (ix2 p k)) = _
    refine congrArg (V c main_v55) (funext fun a => Fin.ext ?_)
    match a with
    | ⟨0, _⟩ => show win0_0.index t (0 : Fin 2) * 2000 + 1 * p.val = 2000 * t.val + p.val; omega
    | ⟨1, _⟩ => show win0_0.index t (1 : Fin 2) * 64 + 1 * k.val = k.val; omega
  have h1 : (iblk0 V c 1 t : S64x64.Idx → EReal) = V c main_arg2 := by
    funext y
    show V c main_arg2 (((cfg0.win 1).blk t).view.emb y) = V c main_arg2 y
    refine congrArg (V c main_arg2) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  have h2 : (iblk0 V c 2 t : S64.Idx → EReal) = V c main_arg3 := by
    funext y
    show V c main_arg3 (((cfg0.win 2).blk t).view.emb y) = V c main_arg3 y
    refine congrArg (V c main_arg3) (funext fun a => Fin.ext ?_)
    match a with
    | ⟨0, _⟩ => show win0_2.index t (0 : Fin 1) * 64 + 1 * (y 0).val = (y 0).val; omega
  show dense (iblk0 V c 0 t) (iblk0 V c 1 t) (iblk0 V c 2 t) (ix2 p q)
    = dense (V c main_v55) (V c main_arg2) (V c main_arg3) (((cfg0.win 3).blk t).view.emb (ix2 p q))
  rw [hr, h1, h2]
  exact dense_rows _ _ _ _ p _ hx q

/-- An index is in point `t`'s output block iff each coordinate is in the block's range on its axis. -/
theorem mem_blk0 (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v56).slice (win0_3.rect t)).set ↔ _
  rw [View.set_slice_whole, Rect.mem_set_unit]
  exact Iff.rfl

/-- Every row of the output array is in some point's block: row `r` in that of point `r / 2000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  obtain ⟨t, htv⟩ : ∃ t : Fin cfg0.N, t.val = (i 0).val / 2000 := ⟨⟨(i 0).val / 2000, by rw [hN]; omega⟩, rfl⟩
  obtain ⟨-, -, -, -, -, e30, e31⟩ := idx_facts0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-- After the first kernel its output array is the dense layer of the activation array it found. -/
theorem final0 (c : Dev nD) :
    (dat0 V c).arrAt 3 cfg0.N = dense (V c main_v55) (V c main_arg2) (V c main_arg3) :=
  (dat0 V c).arrAt_eq_of_cover 3 _ (fun t _ => flushed0 V c t) cover0

/-! ## The second kernel: class scores and their normalisation -/

/-- The index maps over the grid: the activation window and the output window sit at block `(t, 0)`, the four
    weight and bias windows at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the final stage applied to the whole activation array. -/
theorem flushed1 (c : Dev nD) (t : Fin cfg1.N) :
    (dat1 V c).flushed 5 t = ((cfg1.win 5).blk t).view.read (Elt Ideal)
      (head (V c main_v82) (V c main_arg4) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S2000x64) hz2, View.ld_unit_zero (S := S64x64) hz2, View.ld_unit_zero (S := S64) hz1,
    View.ld_unit_zero (S := S64x40) hz2, View.ld_unit_zero (S := S40) hz1]
  rw [pay1_eq]
  obtain ⟨e00, e01, e10, e11, e20, e30, e31, e40, e50, e51⟩ := idx_facts1 t
  funext j
  obtain ⟨p, q, rfl⟩ : ∃ (p : Fin 2000) (q : Fin 40), j = ix2 p q := ⟨j 0, j 1, eq_ix2 j⟩
  have ht : t.val < 50 := lt_of_lt_of_eq t.isLt N_1
  have hp : p.val < 2000 := p.isLt
  have hr : ((cfg1.win 5).blk t).view.emb (ix2 p q) = ix2 (⟨2000 * t.val + p.val, by omega⟩ : Fin 100000) q := by
    funext a; apply Fin.ext
    match a with
    | ⟨0, _⟩ => show win1_5.index t (0 : Fin 2) * 2000 + 1 * p.val = 2000 * t.val + p.val; omega
    | ⟨1, _⟩ => show win1_5.index t (1 : Fin 2) * 40 + 1 * q.val = q.val; omega
  have hx : ∀ k : Fin 64, iblk1 V c 0 t (ix2 p k) = V c main_v82 (ix2 (⟨2000 * t.val + p.val, by omega⟩ : Fin 100000) k) := fun k => by
    show V c main_v82 (((cfg1.win 0).blk t).view.emb (ix2 p k)) = _
    refine congrArg (V c main_v82) (funext fun a => Fin.ext ?_)
    match a with
    | ⟨0, _⟩ => show win1_0.index t (0 : Fin 2) * 2000 + 1 * p.val = 2000 * t.val + p.val; omega
    | ⟨1, _⟩ => show win1_0.index t (1 : Fin 2) * 64 + 1 * k.val = k.val; omega
  have h1 : (iblk1 V c 1 t : S64x64.Idx → EReal) = V c main_arg4 := by
    funext y
    show V c main_arg4 (((cfg1.win 1).blk t).view.emb y) = V c main_arg4 y
    refine congrArg (V c main_arg4) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  have h2 : (iblk1 V c 2 t : S64.Idx → EReal) = V c main_arg5 := by
    funext y
    show V c main_arg5 (((cfg1.win 2).blk t).view.emb y) = V c main_arg5 y
    refine congrArg (V c main_arg5) (funext fun a => Fin.ext ?_)
    match a with
    | ⟨0, _⟩ => show win1_2.index t (0 : Fin 1) * 64 + 1 * (y 0).val = (y 0).val; omega
  have h3 : (iblk1 V c 3 t : S64x40.Idx → EReal) = V c main_arg6 := by
    funext y
    show V c main_arg6 (((cfg1.win 3).blk t).view.emb y) = V c main_arg6 y
    refine congrArg (V c main_arg6) (funext fun a => Fin.ext ?_)
    match a with
    | ⟨0, _⟩ => show win1_3.index t (0 : Fin 2) * 64 + 1 * (y 0).val = (y 0).val; omega
    | ⟨1, _⟩ => show win1_3.index t (1 : Fin 2) * 40 + 1 * (y 1).val = (y 1).val; omega
  have h4 : (iblk1 V c 4 t : S40.Idx → EReal) = V c main_arg7 := by
    funext y
    show V c main_arg7 (((cfg1.win 4).blk t).view.emb y) = V c main_arg7 y
    refine congrArg (V c main_arg7) (funext fun a => Fin.ext ?_)
    match a with
    | ⟨0, _⟩ => show win1_4.index t (0 : Fin 1) * 40 + 1 * (y 0).val = (y 0).val; omega
  show head (iblk1 V c 0 t) (iblk1 V c 1 t) (iblk1 V c 2 t) (iblk1 V c 3 t) (iblk1 V c 4 t) (ix2 p q)
    = head (V c main_v82) (V c main_arg4) (V c main_arg5) (V c main_arg6) (V c main_arg7)
        (((cfg1.win 5).blk t).view.emb (ix2 p q))
  rw [hr, h1, h2, h3, h4]
  exact head_rows _ _ _ _ _ _ p _ hx q

/-- An index is in point `t`'s output block iff each coordinate is in the block's range on its axis. -/
theorem mem_blk1 (t : Fin cfg1.N) (i : S100000x40.Idx) :
    i ∈ ((cfg1.win 5).blk t).view.set ↔ ∀ a : Fin 2, win1_5.index t a * S2000x40.size a ≤ (i a).val
      ∧ (i a).val < win1_5.index t a * S2000x40.size a + S2000x40.size a := by
  show i ∈ ((View.whole main_v83).slice (win1_5.rect t)).set ↔ _
  rw [View.set_slice_whole, Rect.mem_set_unit]
  exact Iff.rfl

/-- Every row of the output array is in some point's block. -/
theorem cover1 (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hN : cfg1.N = 50 := N_1
  obtain ⟨t, htv⟩ : ∃ t : Fin cfg1.N, t.val = (i 0).val / 2000 := ⟨⟨(i 0).val / 2000, by rw [hN]; omega⟩, rfl⟩
  obtain ⟨-, -, -, -, -, -, -, -, e50, e51⟩ := idx_facts1 t
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 40 ≤ (i 1).val ∧ (i 1).val < win1_5.index t (1 : Fin 2) * 40 + 40
    omega

/-- After the second kernel its output array is the final stage of the activation array it found. -/
theorem final1 (c : Dev nD) :
    (dat1 V c).arrAt 5 cfg1.N
      = head (V c main_v82) (V c main_arg4) (V c main_arg5) (V c main_arg6) (V c main_arg7) :=
  (dat1 V c).arrAt_eq_of_cover 5 _ (fun t _ => flushed1 V c t) cover1

end Cert.KernelIdeal.Arrays

end
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.HostStretches.lean ====
/-
  The host operations between the launch and each kernel, read at the buffers the kernels and the later host
  operations consume.

  Before the first kernel the program computes, from the edge list, the row and column index arrays with self loops
  appended, the degree of every node, its inverse square root where the degree is positive, the symmetric
  normalisation weight of every edge, and two propagation steps of the node features; between the two kernels it
  propagates the first kernel's output twice more. The reference program applies the same operations in the same
  order. So, read at any buffer, what the kernel program's operations leave is the reference's corresponding
  stage of the same launch arrays — with the first kernel's output standing where the reference has its first
  dense layer. The operations themselves are not opened: each stretch is read over the contents it starts from,
  and the two sides are then the same term. Buffers a stretch does not write keep their contents.
-/
import proofs.«139116_j7722351198606_1_alg».proof.Proof.Gen.KernelIdeal.Launch
import proofs.«139116_j7722351198606_1_alg».proof.Proof.RefReadPatched
import proofs.«139116_j7722351198606_1_alg».proof.Proof.LibTypedRead
import proofs.«139116_j7722351198606_1_alg».proof.Proof.LibTypedHEq
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.StableHlo Idealize.SL.Sem

/-! ## The index arrays, the degrees and their test: the operations up to the inverse square root -/

theorem s0_v3 (X : Valuation τ sig (Elt Ideal)) (x1 : (⟨Cert.ReferenceIdeal.S2x1600000, .i32⟩ : BufTy).Contents (Elt Ideal))
    (h1 : X (Proc.devRef .tc main_arg1) = x1) :
    StableHlo.after (hostOps0 (F := Ideal)) X (Proc.devRef .tc main_v3) = Cert.ReferenceIdeal.ReadP.val_main_v3 (F := Ideal) x1 := by
  after_results
  rw [h1]
  simp only [Cert.ReferenceIdeal.ReadP.val_main_v0, Cert.ReferenceIdeal.ReadP.val_main_v1, Cert.ReferenceIdeal.ReadP.val_main_v2, Cert.ReferenceIdeal.ReadP.val_main_v3]
  rfl

theorem s0_v6 (X : Valuation τ sig (Elt Ideal)) (x1 : (⟨Cert.ReferenceIdeal.S2x1600000, .i32⟩ : BufTy).Contents (Elt Ideal))
    (h1 : X (Proc.devRef .tc main_arg1) = x1) :
    StableHlo.after (hostOps0 (F := Ideal)) X (Proc.devRef .tc main_v6) = Cert.ReferenceIdeal.ReadP.val_main_v6 (F := Ideal) x1 := by
  after_results
  rw [h1]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6]
  rfl

theorem s0_v12 (X : Valuation τ sig (Elt Ideal)) (x1 : (⟨Cert.ReferenceIdeal.S2x1600000, .i32⟩ : BufTy).Contents (Elt Ideal))
    (h1 : X (Proc.devRef .tc main_arg1) = x1) :
    StableHlo.after (hostOps0 (F := Ideal)) X (Proc.devRef .tc main_v12) = Cert.ReferenceIdeal.ReadP.val_main_v12 (F := Ideal) x1 := by
  after_results
  rw [h1]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12]
  rfl

theorem s0_v13 (X : Valuation τ sig (Elt Ideal)) (x1 : (⟨Cert.ReferenceIdeal.S2x1600000, .i32⟩ : BufTy).Contents (Elt Ideal))
    (h1 : X (Proc.devRef .tc main_arg1) = x1) :
    StableHlo.after (hostOps0 (F := Ideal)) X (Proc.devRef .tc main_v13) = Cert.ReferenceIdeal.ReadP.val_main_v13 (F := Ideal) x1 := by
  after_results
  rw [h1]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13]
  rfl

theorem s0_cst_2 (X : Valuation τ sig (Elt Ideal)) :
    StableHlo.after (hostOps0 (F := Ideal)) X (Proc.devRef .tc main_cst_2) = Cert.ReferenceIdeal.ReadP.val_main_cst_2 (F := Ideal) := by
  after_results
  simp only [Cert.ReferenceIdeal.ReadP.val_main_cst_2]

theorem s0_keep_arg0 (X : Valuation τ sig (Elt Ideal)) :
    StableHlo.after (hostOps0 (F := Ideal)) X (Proc.devRef .tc main_arg0) = X (Proc.devRef .tc main_arg0) := by
  after_results_simp
theorem s0_keep_arg2 (X : Valuation τ sig (Elt Ideal)) :
    StableHlo.after (hostOps0 (F := Ideal)) X (Proc.devRef .tc main_arg2) = X (Proc.devRef .tc main_arg2) := by
  after_results_simp
theorem s0_keep_arg3 (X : Valuation τ sig (Elt Ideal)) :
    StableHlo.after (hostOps0 (F := Ideal)) X (Proc.devRef .tc main_arg3) = X (Proc.devRef .tc main_arg3) := by
  after_results_simp
theorem s0_keep_arg4 (X : Valuation τ sig (Elt Ideal)) :
    StableHlo.after (hostOps0 (F := Ideal)) X (Proc.devRef .tc main_arg4) = X (Proc.devRef .tc main_arg4) := by
  after_results_simp
theorem s0_keep_arg5 (X : Valuation τ sig (Elt Ideal)) :
    StableHlo.after (hostOps0 (F := Ideal)) X (Proc.devRef .tc main_arg5) = X (Proc.devRef .tc main_arg5) := by
  after_results_simp
theorem s0_keep_arg6 (X : Valuation τ sig (Elt Ideal)) :
    StableHlo.after (hostOps0 (F := Ideal)) X (Proc.devRef .tc main_arg6) = X (Proc.devRef .tc main_arg6) := by
  after_results_simp
theorem s0_keep_arg7 (X : Valuation τ sig (Elt Ideal)) :
    StableHlo.after (hostOps0 (F := Ideal)) X (Proc.devRef .tc main_arg7) = X (Proc.devRef .tc main_arg7) := by
  after_results_simp

/-! ## Values held through typed references

The selection of the inverse square root is written by operations over typed references, which store and read
their values through a transport along each buffer's type equation. Every such transport is the identity: for any
typed reference it is heterogeneously equal to its argument, and at a literal reference, whose buffer type IS the
value's type, that is an equation. -/
theorem toBuf_v14 (p q r) (t : (⟨S100000, .f32⟩ : BufTy).Contents (Elt Ideal)) :
    (TRef.of (sig := sig) (T := ⟨S100000, .f32⟩) main_v14 p q r).toBuf t = t := eq_of_heq (Cert.TypedRead.toBuf_heq (TRef.of (sig := sig) (T := ⟨S100000, .f32⟩) main_v14 p q r) t)
theorem ofBuf_v12 (p q r) (t : (⟨S100000, .i1⟩ : BufTy).Contents (Elt Ideal)) :
    (TRef.of (sig := sig) (T := ⟨S100000, .i1⟩) main_v12 p q r).ofBuf t = t := eq_of_heq (Cert.TypedRead.ofBuf_heq (TRef.of (sig := sig) (T := ⟨S100000, .i1⟩) main_v12 p q r) t)
theorem ofBuf_v13 (p q r) (t : (⟨S100000, .f32⟩ : BufTy).Contents (Elt Ideal)) :
    (TRef.of (sig := sig) (T := ⟨S100000, .f32⟩) main_v13 p q r).ofBuf t = t := eq_of_heq (Cert.TypedRead.ofBuf_heq (TRef.of (sig := sig) (T := ⟨S100000, .f32⟩) main_v13 p q r) t)
theorem ofBuf_cst_2 (p q r) (t : (⟨S_, .f32⟩ : BufTy).Contents (Elt Ideal)) :
    (TRef.of (sig := sig) (T := ⟨S_, .f32⟩) main_cst_2 p q r).ofBuf t = t := eq_of_heq (Cert.TypedRead.ofBuf_heq (TRef.of (sig := sig) (T := ⟨S_, .f32⟩) main_cst_2 p q r) t)

/-! ## The inverse square root kept where the degree is positive -/

theorem s01_v14 (X : Valuation τ sig (Elt Ideal)) (x1 : (⟨Cert.ReferenceIdeal.S2x1600000, .i32⟩ : BufTy).Contents (Elt Ideal))
    (h12 : X (Proc.devRef .tc main_v12) = Cert.ReferenceIdeal.ReadP.val_main_v12 (F := Ideal) x1)
    (h13 : X (Proc.devRef .tc main_v13) = Cert.ReferenceIdeal.ReadP.val_main_v13 (F := Ideal) x1)
    (hc : X (Proc.devRef .tc main_cst_2) = Cert.ReferenceIdeal.ReadP.val_main_cst_2 (F := Ideal)) :
    StableHlo.after (hostOps0_1 (F := Ideal)) X (Proc.devRef .tc main_v14) = Cert.ReferenceIdeal.ReadP.val_main_v14 (F := Ideal) x1 := by
  after_results_simp
  simp only [Cert.TypedRead.ofBuf_toBuf, toBuf_v14, ofBuf_v12, ofBuf_v13, ofBuf_cst_2]
  rw [h12, h13, hc]
  simp only [Cert.ReferenceIdeal.ReadP.val_main_call0_v0, Cert.ReferenceIdeal.ReadP.val_main_call0_v1, Cert.ReferenceIdeal.ReadP.val_main_v14]

theorem s01_keep_arg0 (X : Valuation τ sig (Elt Ideal)) :
    StableHlo.after (hostOps0_1 (F := Ideal)) X (Proc.devRef .tc main_arg0) = X (Proc.devRef .tc main_arg0) := by
  after_results_simp
theorem s01_keep_arg2 (X : Valuation τ sig (Elt Ideal)) :
    StableHlo.after (hostOps0_1 (F := Ideal)) X (Proc.devRef .tc main_arg2) = X (Proc.devRef .tc main_arg2) := by
  after_results_simp
theorem s01_keep_arg3 (X : Valuation τ sig (Elt Ideal)) :
    StableHlo.after (hostOps0_1 (F := Ideal)) X (Proc.devRef .tc main_arg3) = X (Proc.devRef .tc main_arg3) := by
  after_results_simp
theorem s01_keep_arg4 (X : Valuation τ sig (Elt Ideal)) :
    StableHlo.after (hostOps0_1 (F := Ideal)) X (Proc.devRef .tc main_arg4) = X (Proc.devRef .tc main_arg4) := by
  after_results_simp
theorem s01_keep_arg5 (X : Valuation τ sig (Elt Ideal)) :
    StableHlo.after (hostOps0_1 (F := Ideal)) X (Proc.devRef .tc main_arg5) = X (Proc.devRef .tc main_arg5) := by
  after_results_simp
theorem s01_keep_arg6 (X : Valuation τ sig (Elt Ideal)) :
    StableHlo.after (hostOps0_1 (F := Ideal)) X (Proc.devRef .tc main_arg6) = X (Proc.devRef .tc main_arg6) := by
  after_results_simp
theorem s01_keep_arg7 (X : Valuation τ sig (Elt Ideal)) :
    StableHlo.after (hostOps0_1 (F := Ideal)) X (Proc.devRef .tc main_arg7) = X (Proc.devRef .tc main_arg7) := by
  after_results_simp
theorem s01_keep_v3 (X : Valuation τ sig (Elt Ideal)) :
    StableHlo.after (hostOps0_1 (F := Ideal)) X (Proc.devRef .tc main_v3) = X (Proc.devRef .tc main_v3) := by
  after_results_simp
theorem s01_keep_v6 (X : Valuation τ sig (Elt Ideal)) :
    StableHlo.after (hostOps0_1 (F := Ideal)) X (Proc.devRef .tc main_v6) = X (Proc.devRef .tc main_v6) := by
  after_results_simp

/-! ## The edge weights and the first two propagation steps -/

theorem tail_v29 (X : Valuation τ sig (Elt Ideal)) (x1 : (⟨Cert.ReferenceIdeal.S2x1600000, .i32⟩ : BufTy).Contents (Elt Ideal))
    (h3 : X (Proc.devRef .tc main_v3) = Cert.ReferenceIdeal.ReadP.val_main_v3 (F := Ideal) x1)
    (h6 : X (Proc.devRef .tc main_v6) = Cert.ReferenceIdeal.ReadP.val_main_v6 (F := Ideal) x1)
    (h14 : X (Proc.devRef .tc main_v14) = Cert.ReferenceIdeal.ReadP.val_main_v14 (F := Ideal) x1) :
    StableHlo.after (hostOps0_2 (F := Ideal)) X (Proc.devRef .tc main_v29) = Cert.ReferenceIdeal.ReadP.val_main_v29 (F := Ideal) x1 := by
  after_results_simp
  rw [h3, h6, h14]
  simp only [Cert.ReferenceIdeal.ReadP.val_main_c, Cert.ReferenceIdeal.ReadP.val_main_v15, Cert.ReferenceIdeal.ReadP.val_main_v16, Cert.ReferenceIdeal.ReadP.val_main_c_3, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_c_4, Cert.ReferenceIdeal.ReadP.val_main_v22, Cert.ReferenceIdeal.ReadP.val_main_v23, Cert.ReferenceIdeal.ReadP.val_main_c_5, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29]
  rfl

theorem tail_v55 (X : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal))
    (h0 : X (Proc.devRef .tc main_arg0) = x0)
    (h3 : X (Proc.devRef .tc main_v3) = Cert.ReferenceIdeal.ReadP.val_main_v3 (F := Ideal) x1)
    (h6 : X (Proc.devRef .tc main_v6) = Cert.ReferenceIdeal.ReadP.val_main_v6 (F := Ideal) x1)
    (h14 : X (Proc.devRef .tc main_v14) = Cert.ReferenceIdeal.ReadP.val_main_v14 (F := Ideal) x1) :
    StableHlo.after (hostOps0_2 (F := Ideal)) X (Proc.devRef .tc main_v55) = Cert.ReferenceIdeal.ReadP.val_main_v55 (F := Ideal) x0 x1 := by
  after_results_simp
  rw [h0, h3, h6, h14]
  simp only [Cert.ReferenceIdeal.ReadP.val_main_c, Cert.ReferenceIdeal.ReadP.val_main_v15, Cert.ReferenceIdeal.ReadP.val_main_v16, Cert.ReferenceIdeal.ReadP.val_main_c_3, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_c_4, Cert.ReferenceIdeal.ReadP.val_main_v22, Cert.ReferenceIdeal.ReadP.val_main_v23, Cert.ReferenceIdeal.ReadP.val_main_c_5, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_c_6, Cert.ReferenceIdeal.ReadP.val_main_v30, Cert.ReferenceIdeal.ReadP.val_main_v31, Cert.ReferenceIdeal.ReadP.val_main_c_7, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_cst_8, Cert.ReferenceIdeal.ReadP.val_main_v40, Cert.ReferenceIdeal.ReadP.val_main_v41, Cert.ReferenceIdeal.ReadP.val_main_v42, Cert.ReferenceIdeal.ReadP.val_main_c_9, Cert.ReferenceIdeal.ReadP.val_main_v43, Cert.ReferenceIdeal.ReadP.val_main_v44, Cert.ReferenceIdeal.ReadP.val_main_c_10, Cert.ReferenceIdeal.ReadP.val_main_v45, Cert.ReferenceIdeal.ReadP.val_main_v46, Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_cst_11, Cert.ReferenceIdeal.ReadP.val_main_v53, Cert.ReferenceIdeal.ReadP.val_main_v54, Cert.ReferenceIdeal.ReadP.val_main_v55]
  rfl

theorem s02_keep_arg2 (X : Valuation τ sig (Elt Ideal)) :
    StableHlo.after (hostOps0_2 (F := Ideal)) X (Proc.devRef .tc main_arg2) = X (Proc.devRef .tc main_arg2) := by
  after_results_simp
theorem s02_keep_arg3 (X : Valuation τ sig (Elt Ideal)) :
    StableHlo.after (hostOps0_2 (F := Ideal)) X (Proc.devRef .tc main_arg3) = X (Proc.devRef .tc main_arg3) := by
  after_results_simp
theorem s02_keep_arg4 (X : Valuation τ sig (Elt Ideal)) :
    StableHlo.after (hostOps0_2 (F := Ideal)) X (Proc.devRef .tc main_arg4) = X (Proc.devRef .tc main_arg4) := by
  after_results_simp
theorem s02_keep_arg5 (X : Valuation τ sig (Elt Ideal)) :
    StableHlo.after (hostOps0_2 (F := Ideal)) X (Proc.devRef .tc main_arg5) = X (Proc.devRef .tc main_arg5) := by
  after_results_simp
theorem s02_keep_arg6 (X : Valuation τ sig (Elt Ideal)) :
    StableHlo.after (hostOps0_2 (F := Ideal)) X (Proc.devRef .tc main_arg6) = X (Proc.devRef .tc main_arg6) := by
  after_results_simp
theorem s02_keep_arg7 (X : Valuation τ sig (Elt Ideal)) :
    StableHlo.after (hostOps0_2 (F := Ideal)) X (Proc.devRef .tc main_arg7) = X (Proc.devRef .tc main_arg7) := by
  after_results_simp
theorem s02_keep_v3 (X : Valuation τ sig (Elt Ideal)) :
    StableHlo.after (hostOps0_2 (F := Ideal)) X (Proc.devRef .tc main_v3) = X (Proc.devRef .tc main_v3) := by
  after_results_simp
theorem s02_keep_v6 (X : Valuation τ sig (Elt Ideal)) :
    StableHlo.after (hostOps0_2 (F := Ideal)) X (Proc.devRef .tc main_v6) = X (Proc.devRef .tc main_v6) := by
  after_results_simp

/-! ## The two propagation steps between the kernels -/

theorem second_v82 (X : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal))
    (h56 : X (Proc.devRef .tc main_v56) = Cert.ReferenceIdeal.ReadP.val_main_v60 (F := Ideal) x0 x1 x2 x3)
    (h3 : X (Proc.devRef .tc main_v3) = Cert.ReferenceIdeal.ReadP.val_main_v3 (F := Ideal) x1)
    (h6 : X (Proc.devRef .tc main_v6) = Cert.ReferenceIdeal.ReadP.val_main_v6 (F := Ideal) x1)
    (h29 : X (Proc.devRef .tc main_v29) = Cert.ReferenceIdeal.ReadP.val_main_v29 (F := Ideal) x1) :
    StableHlo.after (hostOps1 (F := Ideal)) X (Proc.devRef .tc main_v82) = Cert.ReferenceIdeal.ReadP.val_main_v86 (F := Ideal) x0 x1 x2 x3 := by
  after_results_simp
  rw [h56, h3, h6, h29]
  simp only [Cert.ReferenceIdeal.ReadP.val_main_c_12, Cert.ReferenceIdeal.ReadP.val_main_v61, Cert.ReferenceIdeal.ReadP.val_main_v62, Cert.ReferenceIdeal.ReadP.val_main_c_13, Cert.ReferenceIdeal.ReadP.val_main_v63, Cert.ReferenceIdeal.ReadP.val_main_v64, Cert.ReferenceIdeal.ReadP.val_main_v65, Cert.ReferenceIdeal.ReadP.val_main_v66, Cert.ReferenceIdeal.ReadP.val_main_v67, Cert.ReferenceIdeal.ReadP.val_main_v68, Cert.ReferenceIdeal.ReadP.val_main_v69, Cert.ReferenceIdeal.ReadP.val_main_v70, Cert.ReferenceIdeal.ReadP.val_main_cst_14, Cert.ReferenceIdeal.ReadP.val_main_v71, Cert.ReferenceIdeal.ReadP.val_main_v72, Cert.ReferenceIdeal.ReadP.val_main_v73, Cert.ReferenceIdeal.ReadP.val_main_c_15, Cert.ReferenceIdeal.ReadP.val_main_v74, Cert.ReferenceIdeal.ReadP.val_main_v75, Cert.ReferenceIdeal.ReadP.val_main_c_16, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_v80, Cert.ReferenceIdeal.ReadP.val_main_v81, Cert.ReferenceIdeal.ReadP.val_main_v82, Cert.ReferenceIdeal.ReadP.val_main_v83, Cert.ReferenceIdeal.ReadP.val_main_cst_17, Cert.ReferenceIdeal.ReadP.val_main_v84, Cert.ReferenceIdeal.ReadP.val_main_v85, Cert.ReferenceIdeal.ReadP.val_main_v86]
  rfl

theorem s1_keep_arg4 (X : Valuation τ sig (Elt Ideal)) :
    StableHlo.after (hostOps1 (F := Ideal)) X (Proc.devRef .tc main_arg4) = X (Proc.devRef .tc main_arg4) := by
  after_results_simp
theorem s1_keep_arg5 (X : Valuation τ sig (Elt Ideal)) :
    StableHlo.after (hostOps1 (F := Ideal)) X (Proc.devRef .tc main_arg5) = X (Proc.devRef .tc main_arg5) := by
  after_results_simp
theorem s1_keep_arg6 (X : Valuation τ sig (Elt Ideal)) :
    StableHlo.after (hostOps1 (F := Ideal)) X (Proc.devRef .tc main_arg6) = X (Proc.devRef .tc main_arg6) := by
  after_results_simp
theorem s1_keep_arg7 (X : Valuation τ sig (Elt Ideal)) :
    StableHlo.after (hostOps1 (F := Ideal)) X (Proc.devRef .tc main_arg7) = X (Proc.devRef .tc main_arg7) := by
  after_results_simp

end Cert.KernelIdeal.Stretches

end
-- ==== Proof.ReferenceStages.lean ====
/-
  The reference computes the same two row-wise stages.

  After its first two propagation steps the reference multiplies the propagated features by the first weight
  matrix, adds the bias along the rows and rectifies: entry by entry that is the dense layer of the propagated
  array (`Cert.Rowwise.dense`). After the next two propagation steps it applies the second dense layer, the
  classifier's affine map, and the library's log-softmax — row maximum (taken once more against negative infinity,
  which changes nothing), shift, exponential, row sum from zero, logarithm, subtraction: the final stage
  `Cert.Rowwise.head` of the twice-propagated hidden features. The propagation steps themselves are not opened.
-/
import proofs.«139116_j7722351198606_1_alg».proof.Proof.RefReadPatched
import proofs.«139116_j7722351198606_1_alg».proof.Proof.Rowwise
import Idealize.ShloMosaic.PureOps.Ideal.Laws

set_option maxRecDepth 16384

noncomputable section

open scoped BigOperators

namespace Cert.ReferenceIdeal.Stages

open Cert.ReferenceIdeal Cert.ReferenceIdeal.ReadP Cert.Rowwise
open Idealize.ShloMosaic Idealize.ShloMosaic.ValueIdx

/-! ## The first dense layer -/

/-- The rectified affine image of the propagated features is their dense layer. -/
theorem relu1_eq (x0 : (⟨S100000x64, .f32⟩ : BufTy).Contents (Elt Ideal))
    (x1 : (⟨S2x1600000, .i32⟩ : BufTy).Contents (Elt Ideal))
    (x2 : (⟨S64x64, .f32⟩ : BufTy).Contents (Elt Ideal))
    (x3 : (⟨S64, .f32⟩ : BufTy).Contents (Elt Ideal)) :
    val_main_v60 (F := Ideal) x0 x1 x2 x3 = dense (val_main_v55 (F := Ideal) x0 x1) x2 x3 := by
  funext i
  obtain ⟨p, q, rfl⟩ : ∃ (p : Fin 100000) (q : Fin 64), i = ix2 p q := ⟨i 0, i 1, eq_ix2 i⟩
  rw [val_main_v60_apply, val_main_v59_apply, val_main_v56_apply, val_main_v58_apply, val_main_v57_apply,
    val_main_call1_v0_apply, val_main_call1_cst_apply]
  have hl : ∀ k : Fin 64, lidx_main_v56 (ix2 p q) k = ix2 p k := fun k =>
    funext fun a => Fin.ext (by match a with | ⟨0, _⟩ => rfl | ⟨1, _⟩ => rfl)
  have hr : ∀ k : Fin 64, ridx_main_v56 (ix2 p q) k = ix2 k q := fun k =>
    funext fun a => Fin.ext (by match a with | ⟨0, _⟩ => rfl | ⟨1, _⟩ => rfl)
  have hb : idx_main_v57 (idx_main_v58 (ix2 p q)) = ix1 q :=
    funext fun a => Fin.ext (by match a with | ⟨0, _⟩ => rfl)
  simp only [hl, hr, hb]
  show max (_ + _) (Ideal.ofBits .f32 0x00000000#32) = max _ 0
  rw [Ideal.ofBits_zero_f32]

/-! ## The second dense layer and the class scores -/

/-- The second rectified affine image is the dense layer of the twice-propagated hidden features. -/
theorem relu2_eq (x0 : (⟨S100000x64, .f32⟩ : BufTy).Contents (Elt Ideal))
    (x1 : (⟨S2x1600000, .i32⟩ : BufTy).Contents (Elt Ideal))
    (x2 : (⟨S64x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal)) :
    val_main_v91 (F := Ideal) x0 x1 x2 x3 x4 x5 = dense (val_main_v86 (F := Ideal) x0 x1 x2 x3) x4 x5 := by
  funext i
  obtain ⟨p, q, rfl⟩ : ∃ (p : Fin 100000) (q : Fin 64), i = ix2 p q := ⟨i 0, i 1, eq_ix2 i⟩
  rw [val_main_v91_apply, val_main_v90_apply, val_main_v87_apply, val_main_v89_apply, val_main_v88_apply,
    val_main_call2_v0_apply, val_main_call2_cst_apply]
  have hl : ∀ k : Fin 64, lidx_main_v87 (ix2 p q) k = ix2 p k := fun k =>
    funext fun a => Fin.ext (by match a with | ⟨0, _⟩ => rfl | ⟨1, _⟩ => rfl)
  have hr : ∀ k : Fin 64, ridx_main_v87 (ix2 p q) k = ix2 k q := fun k =>
    funext fun a => Fin.ext (by match a with | ⟨0, _⟩ => rfl | ⟨1, _⟩ => rfl)
  have hb : idx_main_v88 (idx_main_v89 (ix2 p q)) = ix1 q :=
    funext fun a => Fin.ext (by match a with | ⟨0, _⟩ => rfl)
  simp only [hl, hr, hb]
  show max (_ + _) (Ideal.ofBits .f32 0x00000000#32) = max _ 0
  rw [Ideal.ofBits_zero_f32]

/-- The classifier's affine image of it is the class scores. -/
theorem scores_eq (x0 : (⟨S100000x64, .f32⟩ : BufTy).Contents (Elt Ideal))
    (x1 : (⟨S2x1600000, .i32⟩ : BufTy).Contents (Elt Ideal))
    (x2 : (⟨S64x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x6 : (⟨S64x40, .f32⟩ : BufTy).Contents (Elt Ideal))
    (x7 : (⟨S40, .f32⟩ : BufTy).Contents (Elt Ideal)) :
    val_main_v95 (F := Ideal) x0 x1 x2 x3 x4 x5 x6 x7 = logits (val_main_v86 (F := Ideal) x0 x1 x2 x3) x4 x5 x6 x7 := by
  funext i
  obtain ⟨p, q, rfl⟩ : ∃ (p : Fin 100000) (q : Fin 40), i = ix2 p q := ⟨i 0, i 1, eq_ix2 i⟩
  rw [val_main_v95_apply, val_main_v92_apply, val_main_v94_apply, val_main_v93_apply, relu2_eq]
  have hl : ∀ k : Fin 64, lidx_main_v92 (ix2 p q) k = ix2 p k := fun k =>
    funext fun a => Fin.ext (by match a with | ⟨0, _⟩ => rfl | ⟨1, _⟩ => rfl)
  have hr : ∀ k : Fin 64, ridx_main_v92 (ix2 p q) k = ix2 k q := fun k =>
    funext fun a => Fin.ext (by match a with | ⟨0, _⟩ => rfl | ⟨1, _⟩ => rfl)
  have hb : idx_main_v93 (idx_main_v94 (ix2 p q)) = ix1 q :=
    funext fun a => Fin.ext (by match a with | ⟨0, _⟩ => rfl)
  simp only [hl, hr, hb]
  rfl

/-! ## The log-softmax -/

/-- The row maximum the reference takes — the reduction from negative infinity, then once more the maximum with
    negative infinity — is the row maximum. -/
theorem rowmax_eq (x0 : (⟨S100000x64, .f32⟩ : BufTy).Contents (Elt Ideal))
    (x1 : (⟨S2x1600000, .i32⟩ : BufTy).Contents (Elt Ideal))
    (x2 : (⟨S64x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x6 : (⟨S64x40, .f32⟩ : BufTy).Contents (Elt Ideal))
    (x7 : (⟨S40, .f32⟩ : BufTy).Contents (Elt Ideal)) (p : Fin 100000) :
    val_main_call3_v2 (F := Ideal) x0 x1 x2 x3 x4 x5 x6 x7 (ix1 p) = rowMax (val_main_v95 (F := Ideal) x0 x1 x2 x3 x4 x5 x6 x7) p := by
  have hR : S100000x40.Reduces [1] S100000 := by decide
  rw [val_main_call3_v2_apply, val_main_call3_v1_apply, val_main_call3_cst_0_apply]
  unfold val_main_call3_v0
  generalize val_main_v95 (F := Ideal) x0 x1 x2 x3 x4 x5 x6 x7 = z
  have e := Host.reduce_eq_fold_single (FloatOps.maximumf (F := Ideal) (φ := .f32)) z (val_main_call3_cst (F := Ideal))
    Gen.reducesTo_S100000x40_S100000_d1 hR Gen.h_S_ (ix1 p)
  rw [e, comp_lift_row hR z p]
  show max (Ideal.ofBits .f32 0xFF800000#32)
      ((Finset.univ : Finset (Fin 40)).fold max (Ideal.ofBits .f32 0xFF800000#32) (fun q => z (ix2 p q))) = rowMax z p
  rw [ofBits_neg_inf, max_bot_left']
  rfl

/-- The shifted scores. -/
theorem shifted_eq (x0 : (⟨S100000x64, .f32⟩ : BufTy).Contents (Elt Ideal))
    (x1 : (⟨S2x1600000, .i32⟩ : BufTy).Contents (Elt Ideal))
    (x2 : (⟨S64x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x6 : (⟨S64x40, .f32⟩ : BufTy).Contents (Elt Ideal))
    (x7 : (⟨S40, .f32⟩ : BufTy).Contents (Elt Ideal)) :
    val_main_call3_v5 (F := Ideal) x0 x1 x2 x3 x4 x5 x6 x7 = shifted (val_main_v95 (F := Ideal) x0 x1 x2 x3 x4 x5 x6 x7) := by
  funext i
  obtain ⟨p, q, rfl⟩ : ∃ (p : Fin 100000) (q : Fin 40), i = ix2 p q := ⟨i 0, i 1, eq_ix2 i⟩
  rw [val_main_call3_v5_apply, val_main_call3_v4_apply, val_main_call3_v3_apply]
  have hi : idx_main_call3_v3 (idx_main_call3_v4 (ix2 p q)) = ix1 p :=
    funext fun a => Fin.ext (by match a with | ⟨0, _⟩ => rfl)
  rw [hi, rowmax_eq]
  rfl

/-- The reference's result is the logarithm of each row's softmax of the class scores. -/
theorem result_eq (x0 : (⟨S100000x64, .f32⟩ : BufTy).Contents (Elt Ideal))
    (x1 : (⟨S2x1600000, .i32⟩ : BufTy).Contents (Elt Ideal))
    (x2 : (⟨S64x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x6 : (⟨S64x40, .f32⟩ : BufTy).Contents (Elt Ideal))
    (x7 : (⟨S40, .f32⟩ : BufTy).Contents (Elt Ideal)) :
    val_main_v96 (F := Ideal) x0 x1 x2 x3 x4 x5 x6 x7 = head (val_main_v86 (F := Ideal) x0 x1 x2 x3) x4 x5 x6 x7 := by
  unfold head
  rw [← scores_eq]
  funext i
  obtain ⟨p, q, rfl⟩ : ∃ (p : Fin 100000) (q : Fin 40), i = ix2 p q := ⟨i 0, i 1, eq_ix2 i⟩
  rw [val_main_v96_apply, val_main_call3_v10_apply, val_main_call3_v9_apply, val_main_call3_v8_apply,
    val_main_call3_v7_apply, val_main_call3_cst_1_apply]
  have hi : idx_main_call3_v8 (idx_main_call3_v10 (ix2 p q)) = ix1 p :=
    funext fun a => Fin.ext (by match a with | ⟨0, _⟩ => rfl)
  have hk : ∀ k : Fin 40, idx_main_call3_v7 (ix1 p) k = ix2 p k := fun k =>
    funext fun a => Fin.ext (by match a with | ⟨0, _⟩ => rfl | ⟨1, _⟩ => rfl)
  have hsum : ∀ k : Fin 40, val_main_call3_v6 (F := Ideal) x0 x1 x2 x3 x4 x5 x6 x7 (idx_main_call3_v7 (ix1 p) k)
      = Ideal.exp (shifted (val_main_v95 (F := Ideal) x0 x1 x2 x3 x4 x5 x6 x7) (ix2 p k)) := fun k => by
    rw [hk k, val_main_call3_v6_apply, shifted_eq, Ideal.hostUnary_exp_def]
  rw [hi, Finset.sum_congr rfl (fun k _ => hsum k), shifted_eq, Ideal.subf_def, Ideal.hostUnary_log_def, Ideal.ofBits_def,
    Ideal.ofBits_zero_f32, zero_add]
  rfl

end Cert.ReferenceIdeal.Stages

end
-- ==== Proof.KernelRun.lean ====
/-
  The kernel program's run, with its result named.

  @main is six segments: three stretches of host operations, the first kernel, a fourth stretch, the second
  kernel. Every weakly fair execution terminates with every unscoped buffer at the contents the last segment leaves
  (the fold of the segments over the launch memory). Walking that fold back:
    • the first kernel finds the twice-propagated features and the first layer's weights and bias as launched, and
      leaves their dense layer — which is the reference's first rectified stage of the same launch arrays;
    • the fourth stretch propagates that twice more, exactly as the reference propagates its first stage;
    • the second kernel finds that array and the remaining weights and biases as launched, and leaves the final
      stage of them — which is the reference's result stage of the launch arrays.
  So the result buffer ends at the reference's result stage, a function of the eight argument arrays, and the
  argument buffers end as launched.
-/
import proofs.«139116_j7722351198606_1_alg».proof.Proof.Gen.KernelIdeal.Frame
import proofs.«139116_j7722351198606_1_alg».proof.Proof.RegionArrays
import proofs.«139116_j7722351198606_1_alg».proof.Proof.HostStretches
import proofs.«139116_j7722351198606_1_alg».proof.Proof.ReferenceStages

set_option maxRecDepth 16384

noncomputable section

namespace Cert.KernelIdeal.RunValue

open Cert.KernelIdeal Cert.KernelIdeal.Gen Cert.KernelIdeal.Arrays Cert.KernelIdeal.Stretches Cert.Rowwise
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Every unscoped buffer ends at the last boundary's contents -/

set_option backward.isDefEq.respectTransparency.types false in
/-- Every weakly fair execution of @main terminates, nothing faulting, with every unscoped buffer of every core at
    the contents the last segment leaves. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-! ## The contents at the boundaries, as the reference's stages of the launch arrays -/

/-- The first kernel finds the twice-propagated features. -/
theorem V3_v55 (c : Dev nD) : V3 m ρ c main_v55 = Cert.ReferenceIdeal.ReadP.val_main_v55 (F := Ideal) (m ((c : Thread nD τ).loc main_arg0)) (m ((c : Thread nD τ).loc main_arg1)) :=
  tail_v55 (StableHlo.after hostOps0_1 (StableHlo.after hostOps0 (W0 m ρ c))) _ _
    ((s01_keep_arg0 _).trans ((s0_keep_arg0 (W0 m ρ c)).trans rfl))
    ((s01_keep_v3 _).trans (s0_v3 (W0 m ρ c) _ rfl)) ((s01_keep_v6 _).trans (s0_v6 (W0 m ρ c) _ rfl))
    (s01_v14 _ _ (s0_v12 (W0 m ρ c) _ rfl) (s0_v13 (W0 m ρ c) _ rfl) (s0_cst_2 (W0 m ρ c)))

/-- It finds the first layer's weights and bias as launched. -/
theorem V3_arg2 (c : Dev nD) : V3 m ρ c main_arg2 = (m ((c : Thread nD τ).loc main_arg2)) := ((s02_keep_arg2 _).trans ((s01_keep_arg2 _).trans ((s0_keep_arg2 (W0 m ρ c)).trans rfl)))
theorem V3_arg3 (c : Dev nD) : V3 m ρ c main_arg3 = (m ((c : Thread nD τ).loc main_arg3)) := ((s02_keep_arg3 _).trans ((s01_keep_arg3 _).trans ((s0_keep_arg3 (W0 m ρ c)).trans rfl)))

/-- The row and column index arrays and the edge weights, as the fourth stretch finds them. -/
theorem W3_v3 (c : Dev nD) : W3 m ρ c (Proc.devRef .tc main_v3) = Cert.ReferenceIdeal.ReadP.val_main_v3 (F := Ideal) (m ((c : Thread nD τ).loc main_arg1)) :=
  (s02_keep_v3 _).trans ((s01_keep_v3 _).trans (s0_v3 (W0 m ρ c) _ rfl))
theorem W3_v6 (c : Dev nD) : W3 m ρ c (Proc.devRef .tc main_v6) = Cert.ReferenceIdeal.ReadP.val_main_v6 (F := Ideal) (m ((c : Thread nD τ).loc main_arg1)) :=
  (s02_keep_v6 _).trans ((s01_keep_v6 _).trans (s0_v6 (W0 m ρ c) _ rfl))
theorem W3_v29 (c : Dev nD) : W3 m ρ c (Proc.devRef .tc main_v29) = Cert.ReferenceIdeal.ReadP.val_main_v29 (F := Ideal) (m ((c : Thread nD τ).loc main_arg1)) :=
  tail_v29 (StableHlo.after hostOps0_1 (StableHlo.after hostOps0 (W0 m ρ c))) _
    ((s01_keep_v3 _).trans (s0_v3 (W0 m ρ c) _ rfl)) ((s01_keep_v6 _).trans (s0_v6 (W0 m ρ c) _ rfl))
    (s01_v14 _ _ (s0_v12 (W0 m ρ c) _ rfl) (s0_v13 (W0 m ρ c) _ rfl) (s0_cst_2 (W0 m ρ c)))

/-- The first kernel leaves the reference's first rectified stage. -/
theorem W4_v56 (c : Dev nD) :
    W4 m ρ c (Proc.devRef .tc main_v56) = Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) := by
  refine (W4_arr m ρ c 3).trans ?_
  rw [final0 (V3 m ρ) c, V3_v55, V3_arg2, V3_arg3]
  exact (Cert.ReferenceIdeal.Stages.relu1_eq _ _ _ _).symm

/-- The second kernel finds the reference's twice-propagated hidden features. -/
theorem V5_v82 (c : Dev nD) : V5 m ρ c main_v82 = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) :=
  second_v82 (W4 m ρ c) _ _ _ _ (W4_v56 m ρ c)
    ((W4_of_ne m ρ c main_v3 (by decide)).trans (W3_v3 m ρ c))
    ((W4_of_ne m ρ c main_v6 (by decide)).trans (W3_v6 m ρ c))
    ((W4_of_ne m ρ c main_v29 (by decide)).trans (W3_v29 m ρ c))

theorem V5_arg4 (c : Dev nD) : V5 m ρ c main_arg4 = (m ((c : Thread nD τ).loc main_arg4)) :=
  (s1_keep_arg4 _).trans ((W4_of_ne m ρ c main_arg4 (by decide)).trans ((s02_keep_arg4 _).trans ((s01_keep_arg4 _).trans ((s0_keep_arg4 (W0 m ρ c)).trans rfl))))
theorem V5_arg5 (c : Dev nD) : V5 m ρ c main_arg5 = (m ((c : Thread nD τ).loc main_arg5)) :=
  (s1_keep_arg5 _).trans ((W4_of_ne m ρ c main_arg5 (by decide)).trans ((s02_keep_arg5 _).trans ((s01_keep_arg5 _).trans ((s0_keep_arg5 (W0 m ρ c)).trans rfl))))
theorem V5_arg6 (c : Dev nD) : V5 m ρ c main_arg6 = (m ((c : Thread nD τ).loc main_arg6)) :=
  (s1_keep_arg6 _).trans ((W4_of_ne m ρ c main_arg6 (by decide)).trans ((s02_keep_arg6 _).trans ((s01_keep_arg6 _).trans ((s0_keep_arg6 (W0 m ρ c)).trans rfl))))
theorem V5_arg7 (c : Dev nD) : V5 m ρ c main_arg7 = (m ((c : Thread nD τ).loc main_arg7)) :=
  (s1_keep_arg7 _).trans ((W4_of_ne m ρ c main_arg7 (by decide)).trans ((s02_keep_arg7 _).trans ((s01_keep_arg7 _).trans ((s0_keep_arg7 (W0 m ρ c)).trans rfl))))

/-- The result buffer ends at the reference's result stage of the launch arrays. -/
theorem W6_v83 (c : Dev nD) :
    W6 m ρ c (Proc.devRef .tc main_v83) = Cert.ReferenceIdeal.ReadP.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 5).trans ?_
  rw [final1 (V5 m ρ) c, V5_v82, V5_arg4, V5_arg5, V5_arg6, V5_arg7]
  exact (Cert.ReferenceIdeal.Stages.result_eq _ _ _ _ _ _ _ _).symm

/-! ## The run -/

/-- Every weakly fair execution of the kernel program terminates, nothing faulting, with its result at the
    reference's result stage of the argument arrays, and the argument arrays as launched. -/
theorem run : θ_run defs (onTc (τ := τ) (main (F := Ideal))) ⟨m, fun _ => 0, ρ⟩ (fun r => ∀ c : Dev nD,
      r.2.mem ((c.tc : Thread nD τ).loc main_v83) = Cert.ReferenceIdeal.ReadP.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v83 (by decide))).trans (W6_v83 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩)
    (run_all m ρ)

end Cert.KernelIdeal.RunValue

end
-- ==== Proof.ReferenceRunStages.lean ====
/-
  The reference program's run, read in stages.

  Every weakly fair execution of the reference's straight-line @main terminates with each buffer at the fold of its
  137 operations over the launch contents. That fold is read in six consecutive stretches, each over the contents
  the previous one left: the index arrays and degrees; the inverse square root kept where the degree is positive;
  the edge weights and two propagation steps; the first dense layer; two more propagation steps; and the second
  dense layer, the classifier and the log-softmax. Read at its result buffer, each stretch leaves the stage the
  operations compose to (the read-at-an-index module's `val_<buffer>`), a function of the stages it started from; a
  buffer a stretch does not write keeps its contents. Chained, the result buffer holds `val_main_v96` of the eight
  launch arrays, and the argument buffers, which no operation writes, end as launched.
-/
import proofs.«139116_j7722351198606_1_alg».proof.Proof.RefReadPatched
import proofs.«139116_j7722351198606_1_alg».proof.Proof.LibTypedRead
import proofs.«139116_j7722351198606_1_alg».proof.Proof.LibTypedHEq
import Idealize.ShloMosaic.Lib.StableHlo.Run
import Idealize.ShloMosaic.Lib.Pipeline.Frame

set_option maxRecDepth 16384

noncomputable section

namespace Cert.ReferenceIdeal.RunStages

open Cert.ReferenceIdeal Cert.ReferenceIdeal.Gen Cert.ReferenceIdeal.ValueP Cert.ReferenceIdeal.ReadP
open Idealize.ShloMosaic Idealize.ShloMosaic.TcCoe Idealize.ShloMosaic.StableHlo Idealize.SL.Sem

/-! ## The six stretches of @main's operations -/

abbrev R1 : List (HloOp τ sig (Elt Ideal)) := (ops (F := Ideal)).drop 18
abbrev R2 : List (HloOp τ sig (Elt Ideal)) := R1.drop 3
abbrev R3 : List (HloOp τ sig (Elt Ideal)) := R2.drop 51
abbrev R4 : List (HloOp τ sig (Elt Ideal)) := R3.drop 7
abbrev opsA : List (HloOp τ sig (Elt Ideal)) := (ops (F := Ideal)).take 18
abbrev opsB : List (HloOp τ sig (Elt Ideal)) := R1.take 3
abbrev opsC : List (HloOp τ sig (Elt Ideal)) := R2.take 51
abbrev opsD : List (HloOp τ sig (Elt Ideal)) := R3.take 7
abbrev opsE : List (HloOp τ sig (Elt Ideal)) := R4.take 32
abbrev opsF : List (HloOp τ sig (Elt Ideal)) := R4.drop 32

/-- A line of operations run as its first `n` and then the rest. -/
theorem after_split (l : List (HloOp τ sig (Elt Ideal))) (n : Nat) (X : Valuation τ sig (Elt Ideal)) :
    StableHlo.after l X = StableHlo.after (l.drop n) (StableHlo.after (l.take n) X) := by
  conv_lhs => rw [← List.take_append_drop n l]
  exact StableHlo.after_append _ _ _

/-- @main's operations are the six stretches one after the other. -/
theorem after_ops (X : Valuation τ sig (Elt Ideal)) :
    StableHlo.after (ops (F := Ideal)) X
      = StableHlo.after opsF (StableHlo.after opsE (StableHlo.after opsD (StableHlo.after opsC
          (StableHlo.after opsB (StableHlo.after opsA X))))) := by
  rw [after_split (ops (F := Ideal)) 18 X, after_split R1 3, after_split R2 51, after_split R3 7, after_split R4 32]

/-! ## Values held through typed references

The functions jax outlined (the selection, the rectifications, the log-softmax) are written over typed references,
which store and read values through a transport along each buffer's type equation; at a literal reference the
transport is the identity. -/

theorem toBuf_v14 (p q r) (t : (⟨S100000, .f32⟩ : BufTy).Contents (Elt Ideal)) :
    (TRef.of (sig := sig) (T := ⟨S100000, .f32⟩) main_v14 p q r).toBuf t = t := eq_of_heq (Cert.TypedRead.toBuf_heq (TRef.of (sig := sig) (T := ⟨S100000, .f32⟩) main_v14 p q r) t)
theorem toBuf_v60 (p q r) (t : (⟨S100000x64, .f32⟩ : BufTy).Contents (Elt Ideal)) :
    (TRef.of (sig := sig) (T := ⟨S100000x64, .f32⟩) main_v60 p q r).toBuf t = t := eq_of_heq (Cert.TypedRead.toBuf_heq (TRef.of (sig := sig) (T := ⟨S100000x64, .f32⟩) main_v60 p q r) t)
theorem toBuf_v91 (p q r) (t : (⟨S100000x64, .f32⟩ : BufTy).Contents (Elt Ideal)) :
    (TRef.of (sig := sig) (T := ⟨S100000x64, .f32⟩) main_v91 p q r).toBuf t = t := eq_of_heq (Cert.TypedRead.toBuf_heq (TRef.of (sig := sig) (T := ⟨S100000x64, .f32⟩) main_v91 p q r) t)
theorem toBuf_v96 (p q r) (t : (⟨S100000x40, .f32⟩ : BufTy).Contents (Elt Ideal)) :
    (TRef.of (sig := sig) (T := ⟨S100000x40, .f32⟩) main_v96 p q r).toBuf t = t := eq_of_heq (Cert.TypedRead.toBuf_heq (TRef.of (sig := sig) (T := ⟨S100000x40, .f32⟩) main_v96 p q r) t)
theorem ofBuf_v12 (p q r) (t : (⟨S100000, .i1⟩ : BufTy).Contents (Elt Ideal)) :
    (TRef.of (sig := sig) (T := ⟨S100000, .i1⟩) main_v12 p q r).ofBuf t = t := eq_of_heq (Cert.TypedRead.ofBuf_heq (TRef.of (sig := sig) (T := ⟨S100000, .i1⟩) main_v12 p q r) t)
theorem ofBuf_v13 (p q r) (t : (⟨S100000, .f32⟩ : BufTy).Contents (Elt Ideal)) :
    (TRef.of (sig := sig) (T := ⟨S100000, .f32⟩) main_v13 p q r).ofBuf t = t := eq_of_heq (Cert.TypedRead.ofBuf_heq (TRef.of (sig := sig) (T := ⟨S100000, .f32⟩) main_v13 p q r) t)
theorem ofBuf_cst_2 (p q r) (t : (⟨S_, .f32⟩ : BufTy).Contents (Elt Ideal)) :
    (TRef.of (sig := sig) (T := ⟨S_, .f32⟩) main_cst_2 p q r).ofBuf t = t := eq_of_heq (Cert.TypedRead.ofBuf_heq (TRef.of (sig := sig) (T := ⟨S_, .f32⟩) main_cst_2 p q r) t)
theorem ofBuf_v59 (p q r) (t : (⟨S100000x64, .f32⟩ : BufTy).Contents (Elt Ideal)) :
    (TRef.of (sig := sig) (T := ⟨S100000x64, .f32⟩) main_v59 p q r).ofBuf t = t := eq_of_heq (Cert.TypedRead.ofBuf_heq (TRef.of (sig := sig) (T := ⟨S100000x64, .f32⟩) main_v59 p q r) t)
theorem ofBuf_v90 (p q r) (t : (⟨S100000x64, .f32⟩ : BufTy).Contents (Elt Ideal)) :
    (TRef.of (sig := sig) (T := ⟨S100000x64, .f32⟩) main_v90 p q r).ofBuf t = t := eq_of_heq (Cert.TypedRead.ofBuf_heq (TRef.of (sig := sig) (T := ⟨S100000x64, .f32⟩) main_v90 p q r) t)
theorem ofBuf_v95 (p q r) (t : (⟨S100000x40, .f32⟩ : BufTy).Contents (Elt Ideal)) :
    (TRef.of (sig := sig) (T := ⟨S100000x40, .f32⟩) main_v95 p q r).ofBuf t = t := eq_of_heq (Cert.TypedRead.ofBuf_heq (TRef.of (sig := sig) (T := ⟨S100000x40, .f32⟩) main_v95 p q r) t)

/-! ## A: the index arrays, the degrees and their test -/

theorem a_v3 (X : Valuation τ sig (Elt Ideal)) (x1 : (⟨S2x1600000, .i32⟩ : BufTy).Contents (Elt Ideal))
    (h1 : X (Proc.devRef .tc main_arg1) = x1) :
    StableHlo.after opsA X (Proc.devRef .tc main_v3) = val_main_v3 (F := Ideal) x1 := by
  simp only [opsA, opsB, opsC, opsD, opsE, opsF, R1, R2, R3, R4, ops, List.take_succ_cons, List.take_zero, List.drop_succ_cons, List.drop_zero]
  after_results
  rw [h1]
  simp only [val_main_v0, val_main_v1, val_main_v2, val_main_v3]
  rfl

theorem a_v6 (X : Valuation τ sig (Elt Ideal)) (x1 : (⟨S2x1600000, .i32⟩ : BufTy).Contents (Elt Ideal))
    (h1 : X (Proc.devRef .tc main_arg1) = x1) :
    StableHlo.after opsA X (Proc.devRef .tc main_v6) = val_main_v6 (F := Ideal) x1 := by
  simp only [opsA, opsB, opsC, opsD, opsE, opsF, R1, R2, R3, R4, ops, List.take_succ_cons, List.take_zero, List.drop_succ_cons, List.drop_zero]
  after_results
  rw [h1]
  simp only [val_main_v0, val_main_v1, val_main_v2, val_main_v3, val_main_v4, val_main_v5, val_main_v6]
  rfl

theorem a_v12 (X : Valuation τ sig (Elt Ideal)) (x1 : (⟨S2x1600000, .i32⟩ : BufTy).Contents (Elt Ideal))
    (h1 : X (Proc.devRef .tc main_arg1) = x1) :
    StableHlo.after opsA X (Proc.devRef .tc main_v12) = val_main_v12 (F := Ideal) x1 := by
  simp only [opsA, opsB, opsC, opsD, opsE, opsF, R1, R2, R3, R4, ops, List.take_succ_cons, List.take_zero, List.drop_succ_cons, List.drop_zero]
  after_results
  rw [h1]
  simp only [val_main_v0, val_main_v1, val_main_v2, val_main_v3, val_main_v4, val_main_v5, val_main_v6, val_main_cst, val_main_v7, val_main_cst_0, val_main_v8, val_main_v9, val_main_v10, val_main_cst_1, val_main_v11, val_main_v12]
  rfl

theorem a_v13 (X : Valuation τ sig (Elt Ideal)) (x1 : (⟨S2x1600000, .i32⟩ : BufTy).Contents (Elt Ideal))
    (h1 : X (Proc.devRef .tc main_arg1) = x1) :
    StableHlo.after opsA X (Proc.devRef .tc main_v13) = val_main_v13 (F := Ideal) x1 := by
  simp only [opsA, opsB, opsC, opsD, opsE, opsF, R1, R2, R3, R4, ops, List.take_succ_cons, List.take_zero, List.drop_succ_cons, List.drop_zero]
  after_results
  rw [h1]
  simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13]
  rfl

theorem a_cst_2 (X : Valuation τ sig (Elt Ideal)) :
    StableHlo.after opsA X (Proc.devRef .tc main_cst_2) = val_main_cst_2 (F := Ideal) := by
  simp only [opsA, opsB, opsC, opsD, opsE, opsF, R1, R2, R3, R4, ops, List.take_succ_cons, List.take_zero, List.drop_succ_cons, List.drop_zero]
  after_results
  simp only [val_main_cst_2]

theorem a_keep_arg0 (X : Valuation τ sig (Elt Ideal)) :
    StableHlo.after opsA X (Proc.devRef .tc main_arg0) = X (Proc.devRef .tc main_arg0) := by
  simp only [opsA, opsB, opsC, opsD, opsE, opsF, R1, R2, R3, R4, ops, List.take_succ_cons, List.take_zero, List.drop_succ_cons, List.drop_zero]
  after_results_simp
theorem a_keep_arg2 (X : Valuation τ sig (Elt Ideal)) :
    StableHlo.after opsA X (Proc.devRef .tc main_arg2) = X (Proc.devRef .tc main_arg2) := by
  simp only [opsA, opsB, opsC, opsD, opsE, opsF, R1, R2, R3, R4, ops, List.take_succ_cons, List.take_zero, List.drop_succ_cons, List.drop_zero]
  after_results_simp
theorem a_keep_arg3 (X : Valuation τ sig (Elt Ideal)) :
    StableHlo.after opsA X (Proc.devRef .tc main_arg3) = X (Proc.devRef .tc main_arg3) := by
  simp only [opsA, opsB, opsC, opsD, opsE, opsF, R1, R2, R3, R4, ops, List.take_succ_cons, List.take_zero, List.drop_succ_cons, List.drop_zero]
  after_results_simp
theorem a_keep_arg4 (X : Valuation τ sig (Elt Ideal)) :
    StableHlo.after opsA X (Proc.devRef .tc main_arg4) = X (Proc.devRef .tc main_arg4) := by
  simp only [opsA, opsB, opsC, opsD, opsE, opsF, R1, R2, R3, R4, ops, List.take_succ_cons, List.take_zero, List.drop_succ_cons, List.drop_zero]
  after_results_simp
theorem a_keep_arg5 (X : Valuation τ sig (Elt Ideal)) :
    StableHlo.after opsA X (Proc.devRef .tc main_arg5) = X (Proc.devRef .tc main_arg5) := by
  simp only [opsA, opsB, opsC, opsD, opsE, opsF, R1, R2, R3, R4, ops, List.take_succ_cons, List.take_zero, List.drop_succ_cons, List.drop_zero]
  after_results_simp
theorem a_keep_arg6 (X : Valuation τ sig (Elt Ideal)) :
    StableHlo.after opsA X (Proc.devRef .tc main_arg6) = X (Proc.devRef .tc main_arg6) := by
  simp only [opsA, opsB, opsC, opsD, opsE, opsF, R1, R2, R3, R4, ops, List.take_succ_cons, List.take_zero, List.drop_succ_cons, List.drop_zero]
  after_results_simp
theorem a_keep_arg7 (X : Valuation τ sig (Elt Ideal)) :
    StableHlo.after opsA X (Proc.devRef .tc main_arg7) = X (Proc.devRef .tc main_arg7) := by
  simp only [opsA, opsB, opsC, opsD, opsE, opsF, R1, R2, R3, R4, ops, List.take_succ_cons, List.take_zero, List.drop_succ_cons, List.drop_zero]
  after_results_simp

/-! ## B: the inverse square root kept where the degree is positive -/

theorem b_v14 (X : Valuation τ sig (Elt Ideal)) (x1 : (⟨S2x1600000, .i32⟩ : BufTy).Contents (Elt Ideal))
    (h12 : X (Proc.devRef .tc main_v12) = val_main_v12 (F := Ideal) x1)
    (h13 : X (Proc.devRef .tc main_v13) = val_main_v13 (F := Ideal) x1)
    (hc : X (Proc.devRef .tc main_cst_2) = val_main_cst_2 (F := Ideal)) :
    StableHlo.after opsB X (Proc.devRef .tc main_v14) = val_main_v14 (F := Ideal) x1 := by
  simp only [opsA, opsB, opsC, opsD, opsE, opsF, R1, R2, R3, R4, ops, List.take_succ_cons, List.take_zero, List.drop_succ_cons, List.drop_zero]
  after_results_simp
  simp only [Cert.TypedRead.ofBuf_toBuf, toBuf_v14, toBuf_v60, toBuf_v91, toBuf_v96, ofBuf_v12, ofBuf_v13, ofBuf_cst_2, ofBuf_v59, ofBuf_v90, ofBuf_v95]
  rw [h12, h13, hc]
  simp only [val_main_call0_v0, val_main_call0_v1, val_main_v14]

theorem b_keep_arg0 (X : Valuation τ sig (Elt Ideal)) :
    StableHlo.after opsB X (Proc.devRef .tc main_arg0) = X (Proc.devRef .tc main_arg0) := by
  simp only [opsA, opsB, opsC, opsD, opsE, opsF, R1, R2, R3, R4, ops, List.take_succ_cons, List.take_zero, List.drop_succ_cons, List.drop_zero]
  after_results_simp
theorem b_keep_arg2 (X : Valuation τ sig (Elt Ideal)) :
    StableHlo.after opsB X (Proc.devRef .tc main_arg2) = X (Proc.devRef .tc main_arg2) := by
  simp only [opsA, opsB, opsC, opsD, opsE, opsF, R1, R2, R3, R4, ops, List.take_succ_cons, List.take_zero, List.drop_succ_cons, List.drop_zero]
  after_results_simp
theorem b_keep_arg3 (X : Valuation τ sig (Elt Ideal)) :
    StableHlo.after opsB X (Proc.devRef .tc main_arg3) = X (Proc.devRef .tc main_arg3) := by
  simp only [opsA, opsB, opsC, opsD, opsE, opsF, R1, R2, R3, R4, ops, List.take_succ_cons, List.take_zero, List.drop_succ_cons, List.drop_zero]
  after_results_simp
theorem b_keep_arg4 (X : Valuation τ sig (Elt Ideal)) :
    StableHlo.after opsB X (Proc.devRef .tc main_arg4) = X (Proc.devRef .tc main_arg4) := by
  simp only [opsA, opsB, opsC, opsD, opsE, opsF, R1, R2, R3, R4, ops, List.take_succ_cons, List.take_zero, List.drop_succ_cons, List.drop_zero]
  after_results_simp
theorem b_keep_arg5 (X : Valuation τ sig (Elt Ideal)) :
    StableHlo.after opsB X (Proc.devRef .tc main_arg5) = X (Proc.devRef .tc main_arg5) := by
  simp only [opsA, opsB, opsC, opsD, opsE, opsF, R1, R2, R3, R4, ops, List.take_succ_cons, List.take_zero, List.drop_succ_cons, List.drop_zero]
  after_results_simp
theorem b_keep_arg6 (X : Valuation τ sig (Elt Ideal)) :
    StableHlo.after opsB X (Proc.devRef .tc main_arg6) = X (Proc.devRef .tc main_arg6) := by
  simp only [opsA, opsB, opsC, opsD, opsE, opsF, R1, R2, R3, R4, ops, List.take_succ_cons, List.take_zero, List.drop_succ_cons, List.drop_zero]
  after_results_simp
theorem b_keep_arg7 (X : Valuation τ sig (Elt Ideal)) :
    StableHlo.after opsB X (Proc.devRef .tc main_arg7) = X (Proc.devRef .tc main_arg7) := by
  simp only [opsA, opsB, opsC, opsD, opsE, opsF, R1, R2, R3, R4, ops, List.take_succ_cons, List.take_zero, List.drop_succ_cons, List.drop_zero]
  after_results_simp
theorem b_keep_v3 (X : Valuation τ sig (Elt Ideal)) :
    StableHlo.after opsB X (Proc.devRef .tc main_v3) = X (Proc.devRef .tc main_v3) := by
  simp only [opsA, opsB, opsC, opsD, opsE, opsF, R1, R2, R3, R4, ops, List.take_succ_cons, List.take_zero, List.drop_succ_cons, List.drop_zero]
  after_results_simp
theorem b_keep_v6 (X : Valuation τ sig (Elt Ideal)) :
    StableHlo.after opsB X (Proc.devRef .tc main_v6) = X (Proc.devRef .tc main_v6) := by
  simp only [opsA, opsB, opsC, opsD, opsE, opsF, R1, R2, R3, R4, ops, List.take_succ_cons, List.take_zero, List.drop_succ_cons, List.drop_zero]
  after_results_simp

/-! ## C: the edge weights and the first two propagation steps -/

theorem c_v29 (X : Valuation τ sig (Elt Ideal)) (x1 : (⟨S2x1600000, .i32⟩ : BufTy).Contents (Elt Ideal))
    (h3 : X (Proc.devRef .tc main_v3) = val_main_v3 (F := Ideal) x1)
    (h6 : X (Proc.devRef .tc main_v6) = val_main_v6 (F := Ideal) x1)
    (h14 : X (Proc.devRef .tc main_v14) = val_main_v14 (F := Ideal) x1) :
    StableHlo.after opsC X (Proc.devRef .tc main_v29) = val_main_v29 (F := Ideal) x1 := by
  simp only [opsA, opsB, opsC, opsD, opsE, opsF, R1, R2, R3, R4, ops, List.take_succ_cons, List.take_zero, List.drop_succ_cons, List.drop_zero]
  after_results_simp
  rw [h3, h6, h14]
  simp only [val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29]

theorem c_v55 (X : Valuation τ sig (Elt Ideal)) (x0 : (⟨S100000x64, .f32⟩ : BufTy).Contents (Elt Ideal)) (x1 : (⟨S2x1600000, .i32⟩ : BufTy).Contents (Elt Ideal))
    (h0 : X (Proc.devRef .tc main_arg0) = x0)
    (h3 : X (Proc.devRef .tc main_v3) = val_main_v3 (F := Ideal) x1)
    (h6 : X (Proc.devRef .tc main_v6) = val_main_v6 (F := Ideal) x1)
    (h14 : X (Proc.devRef .tc main_v14) = val_main_v14 (F := Ideal) x1) :
    StableHlo.after opsC X (Proc.devRef .tc main_v55) = val_main_v55 (F := Ideal) x0 x1 := by
  simp only [opsA, opsB, opsC, opsD, opsE, opsF, R1, R2, R3, R4, ops, List.take_succ_cons, List.take_zero, List.drop_succ_cons, List.drop_zero]
  after_results_simp
  rw [h0, h3, h6, h14]
  simp only [val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29, val_main_c_6, val_main_v30, val_main_v31, val_main_c_7, val_main_v32, val_main_v33, val_main_v34, val_main_v35, val_main_v36, val_main_v37, val_main_v38, val_main_v39, val_main_cst_8, val_main_v40, val_main_v41, val_main_v42, val_main_c_9, val_main_v43, val_main_v44, val_main_c_10, val_main_v45, val_main_v46, val_main_v47, val_main_v48, val_main_v49, val_main_v50, val_main_v51, val_main_v52, val_main_cst_11, val_main_v53, val_main_v54, val_main_v55]

theorem c_keep_arg2 (X : Valuation τ sig (Elt Ideal)) :
    StableHlo.after opsC X (Proc.devRef .tc main_arg2) = X (Proc.devRef .tc main_arg2) := by
  simp only [opsA, opsB, opsC, opsD, opsE, opsF, R1, R2, R3, R4, ops, List.take_succ_cons, List.take_zero, List.drop_succ_cons, List.drop_zero]
  after_results_simp
theorem c_keep_arg3 (X : Valuation τ sig (Elt Ideal)) :
    StableHlo.after opsC X (Proc.devRef .tc main_arg3) = X (Proc.devRef .tc main_arg3) := by
  simp only [opsA, opsB, opsC, opsD, opsE, opsF, R1, R2, R3, R4, ops, List.take_succ_cons, List.take_zero, List.drop_succ_cons, List.drop_zero]
  after_results_simp
theorem c_keep_arg4 (X : Valuation τ sig (Elt Ideal)) :
    StableHlo.after opsC X (Proc.devRef .tc main_arg4) = X (Proc.devRef .tc main_arg4) := by
  simp only [opsA, opsB, opsC, opsD, opsE, opsF, R1, R2, R3, R4, ops, List.take_succ_cons, List.take_zero, List.drop_succ_cons, List.drop_zero]
  after_results_simp
theorem c_keep_arg5 (X : Valuation τ sig (Elt Ideal)) :
    StableHlo.after opsC X (Proc.devRef .tc main_arg5) = X (Proc.devRef .tc main_arg5) := by
  simp only [opsA, opsB, opsC, opsD, opsE, opsF, R1, R2, R3, R4, ops, List.take_succ_cons, List.take_zero, List.drop_succ_cons, List.drop_zero]
  after_results_simp
theorem c_keep_arg6 (X : Valuation τ sig (Elt Ideal)) :
    StableHlo.after opsC X (Proc.devRef .tc main_arg6) = X (Proc.devRef .tc main_arg6) := by
  simp only [opsA, opsB, opsC, opsD, opsE, opsF, R1, R2, R3, R4, ops, List.take_succ_cons, List.take_zero, List.drop_succ_cons, List.drop_zero]
  after_results_simp
theorem c_keep_arg7 (X : Valuation τ sig (Elt Ideal)) :
    StableHlo.after opsC X (Proc.devRef .tc main_arg7) = X (Proc.devRef .tc main_arg7) := by
  simp only [opsA, opsB, opsC, opsD, opsE, opsF, R1, R2, R3, R4, ops, List.take_succ_cons, List.take_zero, List.drop_succ_cons, List.drop_zero]
  after_results_simp
theorem c_keep_v3 (X : Valuation τ sig (Elt Ideal)) :
    StableHlo.after opsC X (Proc.devRef .tc main_v3) = X (Proc.devRef .tc main_v3) := by
  simp only [opsA, opsB, opsC, opsD, opsE, opsF, R1, R2, R3, R4, ops, List.take_succ_cons, List.take_zero, List.drop_succ_cons, List.drop_zero]
  after_results_simp
theorem c_keep_v6 (X : Valuation τ sig (Elt Ideal)) :
    StableHlo.after opsC X (Proc.devRef .tc main_v6) = X (Proc.devRef .tc main_v6) := by
  simp only [opsA, opsB, opsC, opsD, opsE, opsF, R1, R2, R3, R4, ops, List.take_succ_cons, List.take_zero, List.drop_succ_cons, List.drop_zero]
  after_results_simp

/-! ## D: the first dense layer -/

theorem d_v60 (X : Valuation τ sig (Elt Ideal)) (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal))
    (h55 : X (Proc.devRef .tc main_v55) = val_main_v55 (F := Ideal) x0 x1)
    (h2 : X (Proc.devRef .tc main_arg2) = x2) (h3 : X (Proc.devRef .tc main_arg3) = x3) :
    StableHlo.after opsD X (Proc.devRef .tc main_v60) = val_main_v60 (F := Ideal) x0 x1 x2 x3 := by
  simp only [opsA, opsB, opsC, opsD, opsE, opsF, R1, R2, R3, R4, ops, List.take_succ_cons, List.take_zero, List.drop_succ_cons, List.drop_zero]
  after_results_simp
  simp only [Cert.TypedRead.ofBuf_toBuf, toBuf_v14, toBuf_v60, toBuf_v91, toBuf_v96, ofBuf_v12, ofBuf_v13, ofBuf_cst_2, ofBuf_v59, ofBuf_v90, ofBuf_v95]
  rw [h55, h2, h3]
  simp only [val_main_v56, val_main_v57, val_main_v58, val_main_v59, val_main_call1_cst, val_main_call1_v0, val_main_v60]

theorem d_keep_arg4 (X : Valuation τ sig (Elt Ideal)) :
    StableHlo.after opsD X (Proc.devRef .tc main_arg4) = X (Proc.devRef .tc main_arg4) := by
  simp only [opsA, opsB, opsC, opsD, opsE, opsF, R1, R2, R3, R4, ops, List.take_succ_cons, List.take_zero, List.drop_succ_cons, List.drop_zero]
  after_results_simp
theorem d_keep_arg5 (X : Valuation τ sig (Elt Ideal)) :
    StableHlo.after opsD X (Proc.devRef .tc main_arg5) = X (Proc.devRef .tc main_arg5) := by
  simp only [opsA, opsB, opsC, opsD, opsE, opsF, R1, R2, R3, R4, ops, List.take_succ_cons, List.take_zero, List.drop_succ_cons, List.drop_zero]
  after_results_simp
theorem d_keep_arg6 (X : Valuation τ sig (Elt Ideal)) :
    StableHlo.after opsD X (Proc.devRef .tc main_arg6) = X (Proc.devRef .tc main_arg6) := by
  simp only [opsA, opsB, opsC, opsD, opsE, opsF, R1, R2, R3, R4, ops, List.take_succ_cons, List.take_zero, List.drop_succ_cons, List.drop_zero]
  after_results_simp
theorem d_keep_arg7 (X : Valuation τ sig (Elt Ideal)) :
    StableHlo.after opsD X (Proc.devRef .tc main_arg7) = X (Proc.devRef .tc main_arg7) := by
  simp only [opsA, opsB, opsC, opsD, opsE, opsF, R1, R2, R3, R4, ops, List.take_succ_cons, List.take_zero, List.drop_succ_cons, List.drop_zero]
  after_results_simp
theorem d_keep_v3 (X : Valuation τ sig (Elt Ideal)) :
    StableHlo.after opsD X (Proc.devRef .tc main_v3) = X (Proc.devRef .tc main_v3) := by
  simp only [opsA, opsB, opsC, opsD, opsE, opsF, R1, R2, R3, R4, ops, List.take_succ_cons, List.take_zero, List.drop_succ_cons, List.drop_zero]
  after_results_simp
theorem d_keep_v6 (X : Valuation τ sig (Elt Ideal)) :
    StableHlo.after opsD X (Proc.devRef .tc main_v6) = X (Proc.devRef .tc main_v6) := by
  simp only [opsA, opsB, opsC, opsD, opsE, opsF, R1, R2, R3, R4, ops, List.take_succ_cons, List.take_zero, List.drop_succ_cons, List.drop_zero]
  after_results_simp
theorem d_keep_v29 (X : Valuation τ sig (Elt Ideal)) :
    StableHlo.after opsD X (Proc.devRef .tc main_v29) = X (Proc.devRef .tc main_v29) := by
  simp only [opsA, opsB, opsC, opsD, opsE, opsF, R1, R2, R3, R4, ops, List.take_succ_cons, List.take_zero, List.drop_succ_cons, List.drop_zero]
  after_results_simp

/-! ## E: two more propagation steps -/

theorem e_v86 (X : Valuation τ sig (Elt Ideal)) (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal))
    (h60 : X (Proc.devRef .tc main_v60) = val_main_v60 (F := Ideal) x0 x1 x2 x3)
    (h3 : X (Proc.devRef .tc main_v3) = val_main_v3 (F := Ideal) x1)
    (h6 : X (Proc.devRef .tc main_v6) = val_main_v6 (F := Ideal) x1)
    (h29 : X (Proc.devRef .tc main_v29) = val_main_v29 (F := Ideal) x1) :
    StableHlo.after opsE X (Proc.devRef .tc main_v86) = val_main_v86 (F := Ideal) x0 x1 x2 x3 := by
  simp only [opsA, opsB, opsC, opsD, opsE, opsF, R1, R2, R3, R4, ops, List.take_succ_cons, List.take_zero, List.drop_succ_cons, List.drop_zero]
  after_results_simp
  rw [h60, h3, h6, h29]
  simp only [val_main_c_12, val_main_v61, val_main_v62, val_main_c_13, val_main_v63, val_main_v64, val_main_v65, val_main_v66, val_main_v67, val_main_v68, val_main_v69, val_main_v70, val_main_cst_14, val_main_v71, val_main_v72, val_main_v73, val_main_c_15, val_main_v74, val_main_v75, val_main_c_16, val_main_v76, val_main_v77, val_main_v78, val_main_v79, val_main_v80, val_main_v81, val_main_v82, val_main_v83, val_main_cst_17, val_main_v84, val_main_v85, val_main_v86]

theorem e_keep_arg4 (X : Valuation τ sig (Elt Ideal)) :
    StableHlo.after opsE X (Proc.devRef .tc main_arg4) = X (Proc.devRef .tc main_arg4) := by
  simp only [opsA, opsB, opsC, opsD, opsE, opsF, R1, R2, R3, R4, ops, List.take_succ_cons, List.take_zero, List.drop_succ_cons, List.drop_zero]
  after_results_simp
theorem e_keep_arg5 (X : Valuation τ sig (Elt Ideal)) :
    StableHlo.after opsE X (Proc.devRef .tc main_arg5) = X (Proc.devRef .tc main_arg5) := by
  simp only [opsA, opsB, opsC, opsD, opsE, opsF, R1, R2, R3, R4, ops, List.take_succ_cons, List.take_zero, List.drop_succ_cons, List.drop_zero]
  after_results_simp
theorem e_keep_arg6 (X : Valuation τ sig (Elt Ideal)) :
    StableHlo.after opsE X (Proc.devRef .tc main_arg6) = X (Proc.devRef .tc main_arg6) := by
  simp only [opsA, opsB, opsC, opsD, opsE, opsF, R1, R2, R3, R4, ops, List.take_succ_cons, List.take_zero, List.drop_succ_cons, List.drop_zero]
  after_results_simp
theorem e_keep_arg7 (X : Valuation τ sig (Elt Ideal)) :
    StableHlo.after opsE X (Proc.devRef .tc main_arg7) = X (Proc.devRef .tc main_arg7) := by
  simp only [opsA, opsB, opsC, opsD, opsE, opsF, R1, R2, R3, R4, ops, List.take_succ_cons, List.take_zero, List.drop_succ_cons, List.drop_zero]
  after_results_simp

/-! ## F: the second dense layer, the classifier and the log-softmax -/

theorem f_v96 (X : Valuation τ sig (Elt Ideal)) (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal))
    (h86 : X (Proc.devRef .tc main_v86) = val_main_v86 (F := Ideal) x0 x1 x2 x3)
    (h4 : X (Proc.devRef .tc main_arg4) = x4) (h5 : X (Proc.devRef .tc main_arg5) = x5)
    (h6 : X (Proc.devRef .tc main_arg6) = x6) (h7 : X (Proc.devRef .tc main_arg7) = x7) :
    StableHlo.after opsF X (Proc.devRef .tc main_v96) = val_main_v96 (F := Ideal) x0 x1 x2 x3 x4 x5 x6 x7 := by
  simp only [opsA, opsB, opsC, opsD, opsE, opsF, R1, R2, R3, R4, ops, List.take_succ_cons, List.take_zero, List.drop_succ_cons, List.drop_zero]
  after_results_simp
  simp only [Cert.TypedRead.ofBuf_toBuf, toBuf_v14, toBuf_v60, toBuf_v91, toBuf_v96, ofBuf_v12, ofBuf_v13, ofBuf_cst_2, ofBuf_v59, ofBuf_v90, ofBuf_v95]
  rw [h86, h4, h5, h6, h7]
  simp only [val_main_v87, val_main_v88, val_main_v89, val_main_v90, val_main_call2_cst, val_main_call2_v0, val_main_v91, val_main_v92, val_main_v93, val_main_v94, val_main_v95, val_main_call3_cst, val_main_call3_v0, val_main_call3_cst_0, val_main_call3_v1, val_main_call3_v2, val_main_call3_v3, val_main_call3_v4, val_main_call3_v5, val_main_call3_v6, val_main_call3_cst_1, val_main_call3_v7, val_main_call3_v8, val_main_call3_v9, val_main_call3_v10, val_main_v96]

end Cert.ReferenceIdeal.RunStages

end
-- ==== Proof.ReferenceRun.lean ====
/-
  The reference program's run, with its result named.

  The six stretches chained: over the launch contents, the first stretch leaves the index arrays and the degree
  test; the second the inverse square root where the degree is positive; the third the edge weights and the
  twice-propagated features; the fourth their dense layer; the fifth that layer propagated twice more; the sixth
  the second dense layer, the classifier and the log-softmax of what it finds. Each stretch is read over what the
  earlier ones left, the buffers it does not write carried across. So the result buffer ends at the result stage
  `val_main_v96` of the eight launch arrays; no operation writes an argument buffer.
-/
import proofs.«139116_j7722351198606_1_alg».proof.Proof.ReferenceRunStages

set_option maxRecDepth 16384

noncomputable section

namespace Cert.ReferenceIdeal.RunValue

open Cert.ReferenceIdeal Cert.ReferenceIdeal.Gen Cert.ReferenceIdeal.ValueP Cert.ReferenceIdeal.ReadP
open Cert.ReferenceIdeal.RunStages
open Idealize.ShloMosaic Idealize.ShloMosaic.TcCoe Idealize.ShloMosaic.StableHlo Idealize.SL.Sem

/-- Over any contents holding the eight argument arrays, @main's operations leave the result stage in the result
    buffer. -/
theorem value (X : Valuation τ sig (Elt Ideal)) (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal))
    (h0 : X (Proc.devRef .tc main_arg0) = x0)
    (h1 : X (Proc.devRef .tc main_arg1) = x1)
    (h2 : X (Proc.devRef .tc main_arg2) = x2)
    (h3 : X (Proc.devRef .tc main_arg3) = x3)
    (h4 : X (Proc.devRef .tc main_arg4) = x4)
    (h5 : X (Proc.devRef .tc main_arg5) = x5)
    (h6 : X (Proc.devRef .tc main_arg6) = x6)
    (h7 : X (Proc.devRef .tc main_arg7) = x7) :
    StableHlo.after (ops (F := Ideal)) X (Proc.devRef .tc main_v96) = val_main_v96 (F := Ideal) x0 x1 x2 x3 x4 x5 x6 x7 := by
  rw [after_ops]
  generalize hY1 : StableHlo.after opsA X = Y1
  generalize hY2 : StableHlo.after opsB Y1 = Y2
  generalize hY3 : StableHlo.after opsC Y2 = Y3
  generalize hY4 : StableHlo.after opsD Y3 = Y4
  generalize hY5 : StableHlo.after opsE Y4 = Y5
  -- what the first two stretches leave
  have a3 : Y1 (Proc.devRef .tc main_v3) = val_main_v3 (F := Ideal) x1 := hY1 ▸ a_v3 X x1 h1
  have a6 : Y1 (Proc.devRef .tc main_v6) = val_main_v6 (F := Ideal) x1 := hY1 ▸ a_v6 X x1 h1
  have a12 : Y1 (Proc.devRef .tc main_v12) = val_main_v12 (F := Ideal) x1 := hY1 ▸ a_v12 X x1 h1
  have a13 : Y1 (Proc.devRef .tc main_v13) = val_main_v13 (F := Ideal) x1 := hY1 ▸ a_v13 X x1 h1
  have ac : Y1 (Proc.devRef .tc main_cst_2) = val_main_cst_2 (F := Ideal) := hY1 ▸ a_cst_2 X
  have a_0 : Y1 (Proc.devRef .tc main_arg0) = x0 := hY1 ▸ (a_keep_arg0 X).trans h0
  have a_2 : Y1 (Proc.devRef .tc main_arg2) = x2 := hY1 ▸ (a_keep_arg2 X).trans h2
  have a_3 : Y1 (Proc.devRef .tc main_arg3) = x3 := hY1 ▸ (a_keep_arg3 X).trans h3
  have a_4 : Y1 (Proc.devRef .tc main_arg4) = x4 := hY1 ▸ (a_keep_arg4 X).trans h4
  have a_5 : Y1 (Proc.devRef .tc main_arg5) = x5 := hY1 ▸ (a_keep_arg5 X).trans h5
  have a_6 : Y1 (Proc.devRef .tc main_arg6) = x6 := hY1 ▸ (a_keep_arg6 X).trans h6
  have a_7 : Y1 (Proc.devRef .tc main_arg7) = x7 := hY1 ▸ (a_keep_arg7 X).trans h7
  have b3 : Y2 (Proc.devRef .tc main_v3) = val_main_v3 (F := Ideal) x1 := hY2 ▸ (b_keep_v3 Y1).trans a3
  have b6 : Y2 (Proc.devRef .tc main_v6) = val_main_v6 (F := Ideal) x1 := hY2 ▸ (b_keep_v6 Y1).trans a6
  have b14 : Y2 (Proc.devRef .tc main_v14) = val_main_v14 (F := Ideal) x1 := hY2 ▸ b_v14 Y1 x1 a12 a13 ac
  have b_0 : Y2 (Proc.devRef .tc main_arg0) = x0 := hY2 ▸ (b_keep_arg0 Y1).trans a_0
  have b_2 : Y2 (Proc.devRef .tc main_arg2) = x2 := hY2 ▸ (b_keep_arg2 Y1).trans a_2
  have b_3 : Y2 (Proc.devRef .tc main_arg3) = x3 := hY2 ▸ (b_keep_arg3 Y1).trans a_3
  have b_4 : Y2 (Proc.devRef .tc main_arg4) = x4 := hY2 ▸ (b_keep_arg4 Y1).trans a_4
  have b_5 : Y2 (Proc.devRef .tc main_arg5) = x5 := hY2 ▸ (b_keep_arg5 Y1).trans a_5
  have b_6 : Y2 (Proc.devRef .tc main_arg6) = x6 := hY2 ▸ (b_keep_arg6 Y1).trans a_6
  have b_7 : Y2 (Proc.devRef .tc main_arg7) = x7 := hY2 ▸ (b_keep_arg7 Y1).trans a_7
  -- the propagated features and the edge weights
  have c55 : Y3 (Proc.devRef .tc main_v55) = val_main_v55 (F := Ideal) x0 x1 := hY3 ▸ c_v55 Y2 x0 x1 b_0 b3 b6 b14
  have c29 : Y3 (Proc.devRef .tc main_v29) = val_main_v29 (F := Ideal) x1 := hY3 ▸ c_v29 Y2 x1 b3 b6 b14
  have c3 : Y3 (Proc.devRef .tc main_v3) = val_main_v3 (F := Ideal) x1 := hY3 ▸ (c_keep_v3 Y2).trans b3
  have c6 : Y3 (Proc.devRef .tc main_v6) = val_main_v6 (F := Ideal) x1 := hY3 ▸ (c_keep_v6 Y2).trans b6
  have c_2 : Y3 (Proc.devRef .tc main_arg2) = x2 := hY3 ▸ (c_keep_arg2 Y2).trans b_2
  have c_3 : Y3 (Proc.devRef .tc main_arg3) = x3 := hY3 ▸ (c_keep_arg3 Y2).trans b_3
  have c_4 : Y3 (Proc.devRef .tc main_arg4) = x4 := hY3 ▸ (c_keep_arg4 Y2).trans b_4
  have c_5 : Y3 (Proc.devRef .tc main_arg5) = x5 := hY3 ▸ (c_keep_arg5 Y2).trans b_5
  have c_6 : Y3 (Proc.devRef .tc main_arg6) = x6 := hY3 ▸ (c_keep_arg6 Y2).trans b_6
  have c_7 : Y3 (Proc.devRef .tc main_arg7) = x7 := hY3 ▸ (c_keep_arg7 Y2).trans b_7
  -- the first dense layer
  have d60 : Y4 (Proc.devRef .tc main_v60) = val_main_v60 (F := Ideal) x0 x1 x2 x3 := hY4 ▸ d_v60 Y3 x0 x1 x2 x3 c55 c_2 c_3
  have d3 : Y4 (Proc.devRef .tc main_v3) = val_main_v3 (F := Ideal) x1 := hY4 ▸ (d_keep_v3 Y3).trans c3
  have d6 : Y4 (Proc.devRef .tc main_v6) = val_main_v6 (F := Ideal) x1 := hY4 ▸ (d_keep_v6 Y3).trans c6
  have d29 : Y4 (Proc.devRef .tc main_v29) = val_main_v29 (F := Ideal) x1 := hY4 ▸ (d_keep_v29 Y3).trans c29
  have d_4 : Y4 (Proc.devRef .tc main_arg4) = x4 := hY4 ▸ (d_keep_arg4 Y3).trans c_4
  have d_5 : Y4 (Proc.devRef .tc main_arg5) = x5 := hY4 ▸ (d_keep_arg5 Y3).trans c_5
  have d_6 : Y4 (Proc.devRef .tc main_arg6) = x6 := hY4 ▸ (d_keep_arg6 Y3).trans c_6
  have d_7 : Y4 (Proc.devRef .tc main_arg7) = x7 := hY4 ▸ (d_keep_arg7 Y3).trans c_7
  -- propagated twice more
  have e86 : Y5 (Proc.devRef .tc main_v86) = val_main_v86 (F := Ideal) x0 x1 x2 x3 := hY5 ▸ e_v86 Y4 x0 x1 x2 x3 d60 d3 d6 d29
  have e_4 : Y5 (Proc.devRef .tc main_arg4) = x4 := hY5 ▸ (e_keep_arg4 Y4).trans d_4
  have e_5 : Y5 (Proc.devRef .tc main_arg5) = x5 := hY5 ▸ (e_keep_arg5 Y4).trans d_5
  have e_6 : Y5 (Proc.devRef .tc main_arg6) = x6 := hY5 ▸ (e_keep_arg6 Y4).trans d_6
  have e_7 : Y5 (Proc.devRef .tc main_arg7) = x7 := hY5 ▸ (e_keep_arg7 Y4).trans d_7
  exact f_v96 Y5 x0 x1 x2 x3 x4 x5 x6 x7 e86 e_4 e_5 e_6 e_7

/-! ## No operation writes an argument buffer -/

theorem keep_arg0 (X : Valuation τ sig (Elt Ideal)) :
    StableHlo.after (ops (F := Ideal)) X (Proc.devRef .tc main_arg0) = X (Proc.devRef .tc main_arg0) := by
  after_results_simp
theorem keep_arg1 (X : Valuation τ sig (Elt Ideal)) :
    StableHlo.after (ops (F := Ideal)) X (Proc.devRef .tc main_arg1) = X (Proc.devRef .tc main_arg1) := by
  after_results_simp
theorem keep_arg2 (X : Valuation τ sig (Elt Ideal)) :
    StableHlo.after (ops (F := Ideal)) X (Proc.devRef .tc main_arg2) = X (Proc.devRef .tc main_arg2) := by
  after_results_simp
theorem keep_arg3 (X : Valuation τ sig (Elt Ideal)) :
    StableHlo.after (ops (F := Ideal)) X (Proc.devRef .tc main_arg3) = X (Proc.devRef .tc main_arg3) := by
  after_results_simp
theorem keep_arg4 (X : Valuation τ sig (Elt Ideal)) :
    StableHlo.after (ops (F := Ideal)) X (Proc.devRef .tc main_arg4) = X (Proc.devRef .tc main_arg4) := by
  after_results_simp
theorem keep_arg5 (X : Valuation τ sig (Elt Ideal)) :
    StableHlo.after (ops (F := Ideal)) X (Proc.devRef .tc main_arg5) = X (Proc.devRef .tc main_arg5) := by
  after_results_simp
theorem keep_arg6 (X : Valuation τ sig (Elt Ideal)) :
    StableHlo.after (ops (F := Ideal)) X (Proc.devRef .tc main_arg6) = X (Proc.devRef .tc main_arg6) := by
  after_results_simp
theorem keep_arg7 (X : Valuation τ sig (Elt Ideal)) :
    StableHlo.after (ops (F := Ideal)) X (Proc.devRef .tc main_arg7) = X (Proc.devRef .tc main_arg7) := by
  after_results_simp

/-! ## The run -/

/-- Every weakly fair execution of the reference terminates, nothing faulting, with its result at the result stage
    of the argument arrays and the argument arrays as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v96) = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v96).trans (value _ _ _ _ _ _ _ _ _ rfl rfl rfl rfl rfl rfl rfl rfl),
     (h c main_arg0).trans ((keep_arg0 _).trans rfl),
     (h c main_arg1).trans ((keep_arg1 _).trans rfl),
     (h c main_arg2).trans ((keep_arg2 _).trans rfl),
     (h c main_arg3).trans ((keep_arg3 _).trans rfl),
     (h c main_arg4).trans ((keep_arg4 _).trans rfl),
     (h c main_arg5).trans ((keep_arg5 _).trans rfl),
     (h c main_arg6).trans ((keep_arg6 _).trans rfl),
     (h c main_arg7).trans ((keep_arg7 _).trans rfl)⟩)
    (run_seq scopedRefs_eq scopedSems_eq defs main (fun _ => ops) main_eq (fun _ => ops_sub) m ρ)

end Cert.ReferenceIdeal.RunValue

end
-- ==== Proof.lean ====
/-
  A two-layer simplified graph convolution with a classifier head, as a tiled kernel program and as plain array
  code: both compute, for every node, the logarithm of the softmax of its class scores, and the two programs'
  results are equal as extended reals, entry by entry.

  Both programs first build, from the edge list, the symmetric normalisation of the graph with self loops, and
  propagate the node features two steps along it; they do so by the SAME host operations (gathers and accumulating
  scatters over the edge list), which this proof never opens. They then differ only in how the dense stages are
  computed. The kernel program runs each dense stage as a kernel over 50 blocks of 2000 nodes: the first computes
  `max (x · W₁ + b₁) 0` of a block of propagated features; after two more propagation steps the second computes
  `max (x · W₂ + b₂) 0`, the class scores `· Wl + bl`, and the logarithm of each row's softmax through the row's
  maximum and the sum of the shifted exponentials. The reference applies the same formulas to the whole arrays.
  At the extended reals the narrowing of a matrix product's operands is the identity and a product into a zero
  accumulator is the plain sum over the 64 features, so each block a kernel stores is a row-wise function of the
  block it loads (Proof/BlockPayloads.lean over Proof/Rowwise.lean, Proof/RowSoftmax.lean); row-wise functions
  commute with cutting an array into blocks of rows, and the 50 blocks cover the array, so each kernel leaves that
  function of the whole array it found (Proof/RowBlocks.lean, Proof/RegionArrays.lean). The reference's stages are
  the same two functions (Proof/ReferenceStages.lean): its row maximum is taken once more against negative
  infinity, the bottom of the extended reals, which changes nothing, and its row sum starts from zero. The host
  operations around the kernels leave, buffer by buffer, the reference's corresponding stages of the same launch
  arrays (Proof/HostStretches.lean), so the kernel program's result buffer ends at the reference's result stage of
  the argument arrays (Proof/KernelRun.lean), which is where the reference's own run leaves its result
  (Proof/ReferenceRunStages.lean, Proof/ReferenceRun.lean). No step uses that an entry is finite: the two sides
  are the same sums, maxima, exponentials and logarithms of the same entries, in a different grouping only.

  The ideal pass rewrote no operation of the kernel program, so the idealized program is the program's own text
  read at the extended reals and there is nothing to preserve. The three frames: the two kernel programs' from
  their segments, the reference's from its run.
-/
import proofs.«139116_j7722351198606_1_alg».proof.Defs
import proofs.«139116_j7722351198606_1_alg».proof.Proof.Gen.Kernel
import proofs.«139116_j7722351198606_1_alg».proof.Proof.Gen.Kernel.Skeleton
import proofs.«139116_j7722351198606_1_alg».proof.Proof.Gen.Kernel.Launch
import proofs.«139116_j7722351198606_1_alg».proof.Proof.Gen.Kernel.Points
import proofs.«139116_j7722351198606_1_alg».proof.Proof.Gen.Kernel.Frame
import proofs.«139116_j7722351198606_1_alg».proof.Proof.Gen.KernelIdeal
import proofs.«139116_j7722351198606_1_alg».proof.Proof.Gen.KernelIdeal.Skeleton
import proofs.«139116_j7722351198606_1_alg».proof.Proof.Gen.KernelIdeal.Launch
import proofs.«139116_j7722351198606_1_alg».proof.Proof.Gen.KernelIdeal.Points
import proofs.«139116_j7722351198606_1_alg».proof.Proof.Gen.KernelIdeal.Frame
import proofs.«139116_j7722351198606_1_alg».proof.Proof.Gen.ReferenceIdeal
import proofs.«139116_j7722351198606_1_alg».proof.Proof.Gen.Pre_finite_inputs
import proofs.«139116_j7722351198606_1_alg».proof.Proof.KernelRun
import proofs.«139116_j7722351198606_1_alg».proof.Proof.ReferenceRun
import Idealize.ShloMosaic.Adequacy
import Idealize.ShloMosaic.Init

noncomputable section

namespace Cert.Proof

open Idealize.ShloMosaic Idealize.SL.Sem

/-- The kernel program as printed runs, and its arguments end unchanged. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and its arguments end unchanged: its run, the result forgotten. -/
theorem frame_referenceIdeal : Cert.frame_ReferenceIdeal := fun m ρ _ =>
  (θ_run Cert.ReferenceIdeal.defs _ _).mono (fun _ h c => (h c).2) (Cert.ReferenceIdeal.RunValue.run m ρ)

/-- The ideal pass rewrote nothing. -/
theorem preserves : Cert.preserves_Kernel_KernelIdeal := trivial

/-- From memories agreeing on the arguments both programs end with their results at the reference's result stage
    of those arguments: the kernel program by its run, the reference by its own, the agreement rewritten. -/
theorem algebraic : Cert.algebraic_KernelIdeal_ReferenceIdeal := by
  intro m ρ m' ρ' _ hagree
  refine ⟨fun c => Cert.ReferenceIdeal.ReadP.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.RunValue.run m ρ, ?_⟩
  refine (θ_run Cert.ReferenceIdeal.defs _ _).mono (fun _ h c => ⟨(h c).1.trans ?_, (h c).2⟩) (Cert.ReferenceIdeal.RunValue.run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
